-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x8x1024x1024 : Shape := ⟨4, ![6, 8, 1024, 1024]⟩
abbrev S1024x1024 : Shape := ⟨2, ![1024, 1024]⟩
abbrev S1024 : Shape := ⟨1, ![1024]⟩
abbrev S_ : Shape := ⟨0, ![]⟩

class Facts : Prop where
  bcast_S_S6x8x1024x1024 : S_.BroadcastsInDim S6x8x1024x1024 (![] : Fin 0 → Fin S6x8x1024x1024.rank)
  reducesTo_S6x8x1024x1024_S_d0_1_2_3 : S6x8x1024x1024.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S6x8x1024x1024 .f32) (main_arg1 : FVec F S1024x1024 .f32) (main_arg2 : FVec F S1024 .f32) : IVec S_ 1 :=
  let main_v0 : FVec F S6x8x1024x1024 .f32 := Host.absf main_arg0
  let main_cst : FVec F S_ .f32 := constant S_ .f32 0x7F800000#32
  let main_v1 : FVec F S6x8x1024x1024 .f32 := broadcastInDim S6x8x1024x1024 ![] bcast_S_S6x8x1024x1024 main_cst
  let main_v2 : IVec S6x8x1024x1024 1 := cmpf .olt main_v0 main_v1
  let main_c : IVec S_ 1 := constantI S_ 1 1#1
  let main_v3 : IVec S_ 1 := (fun x v => Host.reduce IntOp.andi x v reducesTo_S6x8x1024x1024_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S6x8x1024x1024 : Shape := ⟨4, ![6, 8, 1024, 1024]⟩
abbrev S1024x1024 : Shape := ⟨2, ![1024, 1024]⟩
abbrev S1024 : Shape := ⟨1, ![1024]⟩
abbrev S49152x1024 : Shape := ⟨2, ![49152, 1024]⟩
abbrev S1x1 : Shape := ⟨2, ![1, 1]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S_ : Shape := ⟨0, ![]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 44
  | .vmem => 12
  | .smem => 0
  | _ => 0

abbrev bufTy : (tb : Table) → Fin (tcTables nBuf tb) → BufTy
  | .hbm, ⟨0, _⟩ => ⟨S6x8x1024x1024, .f32⟩
  | .hbm, ⟨1, _⟩ => ⟨S1024x1024, .f32⟩
  | .hbm, ⟨2, _⟩ => ⟨S1024, .f32⟩
  | .hbm, ⟨3, _⟩ => ⟨S49152x1024, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S1024x1024, .bf16⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S49152x1024, .f32⟩
  | .hbm, ⟨43, _⟩ => ⟨S6x8x1024x1024, .f32⟩
  | .local _ .vmem, ⟨0, _⟩ => ⟨S2048x1024, .f32⟩
  | .local _ .vmem, ⟨1, _⟩ => ⟨S2048x1024, .f32⟩
  | .local _ .vmem, ⟨2, _⟩ => ⟨S1x1, .f32⟩
  | .local _ .vmem, ⟨3, _⟩ => ⟨S1x1, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1, .f32⟩
  | .local _ .vmem, ⟨10, _⟩ => ⟨S512x1024, .f32⟩
  | .local _ .vmem, ⟨11, _⟩ => ⟨S512x1024, .f32⟩
  | _, _ => ⟨S6x8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v15 : BitVec 1 := Scalar.cmpi .eq arg0 c23_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S6x8x1024x1024_S49152x1024 : S6x8x1024x1024.ShapeCasts S49152x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  bcast_S_S1x1 : S_.BroadcastsInDim S1x1 (![] : Fin 0 → Fin S1x1.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bitsLt_bf16_f32 : FTy.bits .bf16 < FTy.bits .f32
  transposes_S1024x1024_S1024x1024_1_0 : S1024x1024.Transposes [1, 0] S1024x1024
  shapeCasts_S1024x1_S1024 : S1024x1.ShapeCasts S1024
  shapeCasts_S1x1_S_ : S1x1.ShapeCasts S_
  bcast_S_S1024 : S_.BroadcastsInDim S1024 (![] : Fin 0 → Fin S1024.rank)
  shapeCasts_S1024_S1x1024 : S1024.ShapeCasts S1x1024
  inpos_S1x1_p0_0 : ∀ a, (![0, 0] : Fin 2 → Nat) a < S1x1.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S49152x1024_S6x8x1024x1024 : S49152x1024.ShapeCasts S6x8x1024x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S49152x1024.size a
  hwx0_0 : ∀ i : grid0.Coords, EltTy.bits .f32 = 32 ∨ (Rect.block (s := S49152x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S49152x1024.size a
  hwx1_0 : ∀ i : grid1.Coords, EltTy.bits .f32 = 32 ∨ (Rect.block (s := S49152x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S49152x1024.size a
  hwx1_5 : ∀ i : grid1.Coords, EltTy.bits .f32 = 32 ∨ (Rect.block (s := S49152x1024) S512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S6x8x1024x1024 : Shape := ⟨4, ![6, 8, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1x1x1024 : Shape := ⟨4, ![1, 1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S6x8x1024x1024, .f32⟩
  | .hbm, ⟨1, _⟩ => ⟨S1024x1024, .f32⟩
  | .hbm, ⟨2, _⟩ => ⟨S1024, .f32⟩
  | .hbm, ⟨3, _⟩ => ⟨S6x8x1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S6x8x1024x1024, .f32⟩
  | .hbm, ⟨11, _⟩ => ⟨S6x8x1024x1024, .f32⟩
  | .hbm, ⟨12, _⟩ => ⟨S6x8x1024x1024, .f32⟩
  | .hbm, ⟨13, _⟩ => ⟨S6x8x1024x1024, .f32⟩
  | .hbm, ⟨14, _⟩ => ⟨S6x8x1024x1024, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S6x8x1024x1024, .f32⟩
  | .hbm, ⟨19, _⟩ => ⟨S6x8x1024x1024, .f32⟩
  | .hbm, ⟨20, _⟩ => ⟨S_, .f32⟩
  | .hbm, ⟨21, _⟩ => ⟨S6x8x1024x1024, .f32⟩
  | .hbm, ⟨22, _⟩ => ⟨S6x8x1024x1024, .f32⟩
  | .hbm, ⟨23, _⟩ => ⟨S6x8x1024x1024, .f32⟩
  | .hbm, ⟨24, _⟩ => ⟨S6x8x1024x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S1024x1, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S6x8x1024x1024, .f32⟩
  | .hbm, ⟨56, _⟩ => ⟨S6x8x1024x1024, .f32⟩
  | .hbm, ⟨57, _⟩ => ⟨S6x8x1024x1024, .f32⟩
  | .hbm, ⟨58, _⟩ => ⟨S1x1x1x1024, .f32⟩
  | .hbm, ⟨59, _⟩ => ⟨S6x8x1024x1024, .f32⟩
  | .hbm, ⟨60, _⟩ => ⟨S6x8x1024x1024, .f32⟩
  | .hbm, ⟨61, _⟩ => ⟨S1x1x1x1024, .f32⟩
  | .hbm, ⟨62, _⟩ => ⟨S6x8x1024x1024, .f32⟩
  | .hbm, ⟨63, _⟩ => ⟨S6x8x1024x1024, .f32⟩
  | _, _ => ⟨S6x8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_c_7 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  reducesTo_S6x8x1024x1024_S_d0_1_2_3 : S6x8x1024x1024.ReducesTo [0, 1, 2, 3] S_
  h_S_ : 0 < S_.numel
  bcast_S_S6x8x1024x1024 : S_.BroadcastsInDim S6x8x1024x1024 (![] : Fin 0 → Fin S6x8x1024x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  shapeCasts_S1024x1_S1024 : S1024x1.ShapeCasts S1024
  bcast_S_S1024 : S_.BroadcastsInDim S1024 (![] : Fin 0 → Fin S1024.rank)
  bcast_S1024_S1x1x1x1024_3 : S1024.BroadcastsInDim S1x1x1x1024 (![3] : Fin 1 → Fin S1x1x1x1024.rank)
  bcast_S1x1x1x1024_S6x8x1024x1024_0_1_2_3 : S1x1x1x1024.BroadcastsInDim S6x8x1024x1024 (![0, 1, 2, 3] : Fin 4 → Fin S6x8x1024x1024.rank)
  dot_S6x8x1024x1024_S1024x1024_S6x8x1024x1024_3_1_012_0_n_n_wf : DotDims.WF S6x8x1024x1024 S1024x1024 S6x8x1024x1024 [3] [1] [0, 1, 2] [0] [] []

variable [Facts₀]

def dot_S6x8x1024x1024_S1024x1024_S6x8x1024x1024_3_1_012_0_n_n : DotDims S6x8x1024x1024 S1024x1024 S6x8x1024x1024 where
  lhsContracting := [3]
  rhsContracting := [1]
  lhsNonContracting := [0, 1, 2]
  rhsNonContracting := [0]
  lhsBatch := []
  rhsBatch := []
  wf := dot_S6x8x1024x1024_S1024x1024_S6x8x1024x1024_3_1_012_0_n_n_wf

class Facts : Prop extends Facts₀ where

variable [Facts]
-- ==== Proof.AbsMaxSharedBits.lean ====
/-
  The first kernel region keeps the running maximum of |x| in a one-by-one scratch cell while it walks the
  24 row blocks (2048 rows each) of the flattened activations: the cell is reset to zero at the first block,
  replaced by max(cell, max of the block's absolute values) at every block, and copied to the one-by-one
  output at the last block. Here: the two conditions of the body as statements about the block's number,
  where the output window is idle, the buffers the body is called on, and the region's standing invariant
  with the scratch cell named apart from the other scoped buffers.
-/
import proofs.«149211_j12876311953739_1_alg».proof.Proof.Gen.Kernel.Launch
import proofs.«149211_j12876311953739_1_alg».proof.Proof.Gen.Kernel.Skeleton
import proofs.«149211_j12876311953739_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.AbsMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body resets the cell exactly when the block's number is zero. -/
abbrev atFirst (i : grid0.Coords) : Prop :=
  (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The body copies the cell to the output exactly when the block's number is 23, the last. -/
abbrev atLast (i : grid0.Coords) : Prop := k0_cond2 i = 1#1
theorem atLast_iff : ∀ t : Fin cfg0.N, atLast (grid0.coords t) ↔ t.val = 23 :=
  (by decide +kernel : ∀ t : Fin grid0.N, atLast (grid0.coords t) ↔ t.val = 23)

/-! ## Where the windows are idle -/

theorem in_live : ∀ t : Fin cfg0.N, cfg0.idle 0 (grid0.coords t) = false := by decide +kernel
theorem out_idle : ∀ t : Fin cfg0.N, ¬atLast (grid0.coords t) → cfg0.idle 1 (grid0.coords t) = true := by decide +kernel
theorem out_noFlush : ∀ t : Fin cfg0.N, ¬atLast (grid0.coords t) → (cfg0.win 1).flush t = false := by decide +kernel
theorem out_live : ∀ t : Fin cfg0.N, atLast (grid0.coords t) → cfg0.idle 1 (grid0.coords t) = false := by decide +kernel

/-! ## The buffers the body is called on -/

abbrev inM (t : Fin cfg0.N) : Memref sig .tc .vmem S2048x1024 .f32 := win0_0.stage (cfg0.slots t 0)
abbrev inM_whole (t : Fin cfg0.N) : (inM t).IsWhole := hstage0_0 ((cfg0.slots t 0).cast nbuf0_0)
abbrev outM (t : Fin cfg0.N) : Memref sig .tc .vmem S1x1 .f32 := win0_1.stage (cfg0.slots t 1)
abbrev outM_whole (t : Fin cfg0.N) : (outM t).IsWhole := hstage0_1 ((cfg0.slots t 1).cast nbuf0_1)
/-- The scratch cell. -/
abbrev cellM : Memref sig .tc .vmem S1x1 .f32 := Memref.whole cc0_scratch0
abbrev cellV : View sig .tc .vmem S1x1 .f32 := cellM.view
/-- A buffer of the output window, through which its contents are stated. -/
abbrev outV : View sig .tc .vmem S1x1 .f32 := (Memref.whole cc0_stg1_0 : Memref sig .tc .vmem S1x1 .f32).view

/-! ## The standing invariant, the cell apart -/

/-- The scoped buffers that are neither this region's staging buffers nor the cell: the second region's eight
    staging buffers, each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class invariant of the region is: the cell at some contents, the other scoped buffers, the generator register. -/
theorem PhiA_eq (c : Dev nD) :
    (Pipeline.ΦA spec0 c : sProp 𝕄)
      = iprop(((∃ d, owns (c : Thread nD τ) cellM fullShare d) ∗ otherScoped (F := F) c) ∗ (∃ r, prngReg c r)) := by
  unfold Pipeline.ΦA otherScoped; rw [scopedRest0_eq]; simp only [cellM, owns_whole]; try rfl

end Cert.Kernel.AbsMax

end
-- ==== Proof.AbsMaxRunsBits.lean ====
/-
  The body of the first region run once per case of its two conditions, on any whole buffers: at the first
  block (the cell is reset, then updated), at a middle block (the cell is updated), at the last block (the cell
  is updated, then copied to the output). Each run names, as a list of written pieces, what the cell — and at
  the last block the output — holds afterwards.
-/
import proofs.«149211_j12876311953739_1_alg».proof.Proof.AbsMaxSharedBits

set_option maxRecDepth 16384

noncomputable section

namespace Cert.Kernel.AbsMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST BLOCK: the input block at x0, the output untouched, the cell at anything; afterwards the cell holds its pieces. -/
noncomputable def runFirst (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : atFirst i) (hc1 : ¬atLast i) (x0 : Vec F S2048x1024 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__reduce_max_kernel i arg1 harg1 arg2 harg2 arg3 harg3) K } := by
  refine ⟨?_, fun xi E K => ?run⟩
  case run =>
    simp only [cc0__reduce_max_kernel_eq_skeleton]; unfold cc0__reduce_max_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE BLOCK: the input block at x0, the output untouched, the cell at xs; afterwards the cell holds its pieces. -/
noncomputable def runMiddle (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : ¬atLast i) (x0 : Vec F S2048x1024 .f32) (xs : Vec F S1x1 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__reduce_max_kernel i arg1 harg1 arg2 harg2 arg3 harg3) K } := by
  refine ⟨?_, fun xi E K => ?run⟩
  case run =>
    simp only [cc0__reduce_max_kernel_eq_skeleton]; unfold cc0__reduce_max_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST BLOCK: the input block at x0, the output at anything, the cell at xs; afterwards the output and the cell
    hold their pieces. -/
noncomputable def runLast (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : atLast i) (x0 : Vec F S2048x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__reduce_max_kernel i arg1 harg1 arg2 harg2 arg3 harg3) K } := by
  refine ⟨?_, ?_, fun E K => ?run⟩
  case run =>
    simp only [cc0__reduce_max_kernel_eq_skeleton]; unfold cc0__reduce_max_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.AbsMax

end
-- ==== Proof.AbsMaxRegionBits.lean ====
/-
  The first region, block by block. After block n the scratch cell holds c(n), with c(0) = what the body leaves
  from a reset cell and block 0, and c(n+1) = what the body leaves from c(n) and block n+1; at the last block the
  output holds a copy of the cell. The region's invariant before block n+1 says the cell holds c(n); with it the
  body's run at every block is the obligation the pipeline asks for.
-/
import proofs.«149211_j12876311953739_1_alg».proof.Proof.AbsMaxRunsBits

set_option maxRecDepth 16384

noncomputable section

namespace Cert.Kernel.AbsMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks -/

/-- Window w's block at point t, read off its array as the region finds it: for the input, rows 2048 t to
    2048 t + 2047 of the flattened activations. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over these arrays that leaves
    the block in place. -/
theorem before_in_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What each case leaves -/

section Cases
variable (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)

theorem cover_first (hc0 : atFirst i) (hc1 : ¬atLast i) (x0 : Vec F S2048x1024 .f32) (y : S1x1.Idx) :
    ∃ pc ∈ (runFirst c i arg1 harg1 arg2 harg2 arg3 harg3 hc0 hc1 x0).1, y ∈ pc.1.set :=
  View.cover_of_tiledL (runFirst c i arg1 harg1 arg2 harg2 arg3 harg3 hc0 hc1 x0).1 S1x1.size (by sl_kernel_rfl) y
/-- The cell after the first block. -/
def cellFirst (hc0 : atFirst i) (hc1 : ¬atLast i) (x0 : Vec F S2048x1024 .f32) : Vec F S1x1 .f32 :=
  cellV.read (Elt F) (cellV.writes (Elt F) cellV.junk (runFirst c i arg1 harg1 arg2 harg2 arg3 harg3 hc0 hc1 x0).1)

theorem cover_middle (hc0 : ¬atFirst i) (hc1 : ¬atLast i) (x0 : Vec F S2048x1024 .f32) (xs : Vec F S1x1 .f32) (y : S1x1.Idx) :
    ∃ pc ∈ (runMiddle c i arg1 harg1 arg2 harg2 arg3 harg3 hc0 hc1 x0 xs).1, y ∈ pc.1.set :=
  View.cover_of_tiledL (runMiddle c i arg1 harg1 arg2 harg2 arg3 harg3 hc0 hc1 x0 xs).1 S1x1.size (by sl_kernel_rfl) y
/-- The cell after a middle block, from what the block before left. -/
def cellMiddle (hc0 : ¬atFirst i) (hc1 : ¬atLast i) (x0 : Vec F S2048x1024 .f32) (xs : Vec F S1x1 .f32) : Vec F S1x1 .f32 :=
  cellV.read (Elt F) (cellV.writes (Elt F) cellV.junk (runMiddle c i arg1 harg1 arg2 harg2 arg3 harg3 hc0 hc1 x0 xs).1)

theorem cover_last_cell (hc0 : ¬atFirst i) (hc1 : atLast i) (x0 : Vec F S2048x1024 .f32) (xs : Vec F S1x1 .f32) (y : S1x1.Idx) :
    ∃ pc ∈ (runLast c i arg1 harg1 arg2 harg2 arg3 harg3 hc0 hc1 x0 xs).2.1, y ∈ pc.1.set :=
  View.cover_of_tiledL (runLast c i arg1 harg1 arg2 harg2 arg3 harg3 hc0 hc1 x0 xs).2.1 S1x1.size (by sl_kernel_rfl) y
/-- The cell after the last block. -/
def cellLast (hc0 : ¬atFirst i) (hc1 : atLast i) (x0 : Vec F S2048x1024 .f32) (xs : Vec F S1x1 .f32) : Vec F S1x1 .f32 :=
  cellV.read (Elt F) (cellV.writes (Elt F) cellV.junk (runLast c i arg1 harg1 arg2 harg2 arg3 harg3 hc0 hc1 x0 xs).2.1)

theorem cover_last_out (hc0 : ¬atFirst i) (hc1 : atLast i) (x0 : Vec F S2048x1024 .f32) (xs : Vec F S1x1 .f32) (y : S1x1.Idx) :
    ∃ pc ∈ (runLast c i arg1 harg1 arg2 harg2 arg3 harg3 hc0 hc1 x0 xs).1, y ∈ pc.1.set :=
  View.cover_of_tiledL (runLast c i arg1 harg1 arg2 harg2 arg3 harg3 hc0 hc1 x0 xs).1 S1x1.size (by sl_kernel_rfl) y
/-- The output after the last block. -/
def outLast (hc0 : ¬atFirst i) (hc1 : atLast i) (x0 : Vec F S2048x1024 .f32) (xs : Vec F S1x1 .f32) : Vec F S1x1 .f32 :=
  outV.read (Elt F) (outV.writes (Elt F) outV.junk (runLast c i arg1 harg1 arg2 harg2 arg3 harg3 hc0 hc1 x0 xs).1)

end Cases

/-! ## The cell after each block -/

/-- THE RECURRENCE: the cell after block n. -/
def cellAt (c : Dev nD) : (n : ℕ) → n < cfg0.N → Vec F S1x1 .f32
  | 0, hn => cellFirst c (grid0.coords ⟨0, hn⟩) (inM ⟨0, hn⟩) (inM_whole ⟨0, hn⟩) (outM ⟨0, hn⟩) (outM_whole ⟨0, hn⟩) cellM (Memref.isWhole_whole _) ((atFirst_iff ⟨0, hn⟩).mpr rfl)
      (fun h => absurd ((atLast_iff ⟨0, hn⟩).mp h) (show ¬(0 : ℕ) = 23 by decide)) (blockAt V c 0 ⟨0, hn⟩)
  | n + 1, hn =>
    if h1 : n + 1 = 23 then
      cellLast c (grid0.coords ⟨n + 1, hn⟩) (inM ⟨n + 1, hn⟩) (inM_whole ⟨n + 1, hn⟩) (outM ⟨n + 1, hn⟩) (outM_whole ⟨n + 1, hn⟩) cellM (Memref.isWhole_whole _) (fun h => absurd ((atFirst_iff ⟨n + 1, hn⟩).mp h) (Nat.succ_ne_zero n))
        ((atLast_iff ⟨n + 1, hn⟩).mpr h1) (blockAt V c 0 ⟨n + 1, hn⟩) (cellAt c n (Nat.lt_of_succ_lt hn))
    else
      cellMiddle c (grid0.coords ⟨n + 1, hn⟩) (inM ⟨n + 1, hn⟩) (inM_whole ⟨n + 1, hn⟩) (outM ⟨n + 1, hn⟩) (outM_whole ⟨n + 1, hn⟩) cellM (Memref.isWhole_whole _) (fun h => absurd ((atFirst_iff ⟨n + 1, hn⟩).mp h) (Nat.succ_ne_zero n))
        (fun h => h1 ((atLast_iff ⟨n + 1, hn⟩).mp h)) (blockAt V c 0 ⟨n + 1, hn⟩) (cellAt c n (Nat.lt_of_succ_lt hn))

theorem cellAt_first (c : Dev nD) (t : Fin cfg0.N) (h0 : t.val = 0) (h1 : ¬t.val = 23) :
    cellAt V c t.val t.isLt = cellFirst c (grid0.coords t) (inM t) (inM_whole t) (outM t) (outM_whole t) cellM (Memref.isWhole_whole _) ((atFirst_iff t).mpr h0) (fun h => h1 ((atLast_iff t).mp h)) (blockAt V c 0 t) := by
  obtain ⟨n, hn⟩ := t
  cases n with
  | zero => exact rfl
  | succ n => exact absurd h0 (Nat.succ_ne_zero n)

theorem cellAt_middle (c : Dev nD) (t : Fin cfg0.N) (h0 : ¬t.val = 0) (h1 : ¬t.val = 23) :
    cellAt V c t.val t.isLt = cellMiddle c (grid0.coords t) (inM t) (inM_whole t) (outM t) (outM_whole t) cellM (Memref.isWhole_whole _) (fun h => h0 ((atFirst_iff t).mp h)) (fun h => h1 ((atLast_iff t).mp h)) (blockAt V c 0 t)
      (cellAt V c (t.val - 1) (Nat.lt_of_le_of_lt (Nat.sub_le _ _) t.isLt)) := by
  obtain ⟨n, hn⟩ := t
  cases n with
  | zero => exact absurd rfl h0
  | succ n => exact (dif_neg h1).trans rfl

theorem cellAt_last (c : Dev nD) (t : Fin cfg0.N) (h0 : ¬t.val = 0) (h1 : t.val = 23) :
    cellAt V c t.val t.isLt = cellLast c (grid0.coords t) (inM t) (inM_whole t) (outM t) (outM_whole t) cellM (Memref.isWhole_whole _) (fun h => h0 ((atFirst_iff t).mp h)) ((atLast_iff t).mpr h1) (blockAt V c 0 t)
      (cellAt V c (t.val - 1) (Nat.lt_of_le_of_lt (Nat.sub_le _ _) t.isLt)) := by
  obtain ⟨n, hn⟩ := t
  cases n with
  | zero => exact absurd rfl h0
  | succ n => exact (dif_pos h1).trans rfl

/-- The output after block t: at the last block the copy of the cell; elsewhere the window is idle and nothing reads this. -/
def outAt (c : Dev nD) (t : Fin cfg0.N) : Vec F S1x1 .f32 :=
  if h1 : t.val = 23 then
    outLast c (grid0.coords t) (inM t) (inM_whole t) (outM t) (outM_whole t) cellM (Memref.isWhole_whole _) (fun h => absurd (((atFirst_iff t).mp h).symm.trans h1) (by decide)) ((atLast_iff t).mpr h1) (blockAt V c 0 t)
      (cellAt V c (t.val - 1) (Nat.lt_of_le_of_lt (Nat.sub_le _ _) t.isLt))
  else outV.read (Elt F) outV.junk

theorem outAt_last (c : Dev nD) (t : Fin cfg0.N) (h0 : ¬t.val = 0) (h1 : t.val = 23) :
    outAt V c t = outLast c (grid0.coords t) (inM t) (inM_whole t) (outM t) (outM_whole t) cellM (Memref.isWhole_whole _) (fun h => h0 ((atFirst_iff t).mp h)) ((atLast_iff t).mpr h1) (blockAt V c 0 t)
      (cellAt V c (t.val - 1) (Nat.lt_of_le_of_lt (Nat.sub_le _ _) t.isLt)) := by
  unfold outAt; exact (dif_pos h1).trans rfl

/-! ## The invariant -/

/-- Before block n: at n = 0 the class invariant (the cell at anything); afterwards the cell at what block n - 1 left,
    the other scoped buffers and the generator register. -/
def PhiS (c : Dev nD) : (n : ℕ) → n ≤ cfg0.N → sProp 𝕄
  | 0, _ => Pipeline.ΦA spec0 c
  | n + 1, hn => iprop((owns (c : Thread nD τ) cellM fullShare (cellAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) cellM fullShare (cellAt V c n hn) ∗ otherScoped (F := F) c) ∗ (∃ r, prngReg c r)) := rfl
theorem PhiS_pos (c : Dev nD) (n : ℕ) (h : n ≤ cfg0.N) (hz : n ≠ 0) :
    PhiS V c n h = iprop((owns (c : Thread nD τ) cellM fullShare (cellAt V c (n - 1) (by omega)) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => outAt V c t
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]
theorem Phi_castSucc (c : Dev nD) (t : Fin cfg0.N) :
    (dat0 V c).Φ t.castSucc = PhiS V c t.val (Nat.le_of_lt t.isLt) := by
  dsimp only [dat0]; simp only [Fin.coe_castSucc]
theorem after_in (c : Dev nD) (t : Fin cfg0.N) : (dat0 V c).after 0 t = blockAt V c 0 t := by dsimp only [dat0]
theorem after_out (c : Dev nD) (t : Fin cfg0.N) : (dat0 V c).after 1 t = outAt V c t := by dsimp only [dat0]
theorem before_in (c : Dev nD) (t : Fin cfg0.N) (d) : (dat0 V c).before 0 t d = blockAt V c 0 t :=
  before_in_of V (dat0 V c) (A_eq V c 0) (after_in V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (inM t) fullShare ((dat0 V c).before 0 t d))
    ∗ (∃ d, owns (c : Thread nD τ) (outM t) fullShare ((dat0 V c).before 1 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any block: the input's buffer holds the block; the block's number says which case it is; the invariant
    hands the cell over at what the block before left (at anything, at the first block) and takes it back at this
    block's contents; nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat0 V c).owesAt () t.succ = (dat0 V c).owesAt () t.castSucc from rfl]
  rw [show (dat0 V c).Φ t.succ = PhiS V c (t.val + 1) t.isLt from rfl, PhiS_succ]
  have hN : t.val < 24 := lt_of_lt_of_eq t.isLt (show cfg0.N = 24 from N_0)
  rw [show (dat0 V c).leavesExact 0 t = owns (c : Thread nD τ) (inM t) fullShare ((dat0 V c).after 0 t) from by
    unfold Dat.leavesExact; rw [in_live t], after_in]
  by_cases h0 : t.val = 0
  · have h1 : ¬t.val = 23 := by omega
    rw [Dat.leavesExact_idle (dat0 V c) 1 t (out_idle t (fun h => h1 ((atLast_iff t).mp h))) (out_noFlush t (fun h => h1 ((atLast_iff t).mp h)))]
    rw [cellAt_first V c t h0 h1]
    unfold cellFirst; (try dsimp only)
    rw [Phi_castSucc V c t, PhiS_zero V c _ _ h0, PhiA_eq]
    iintro ⟨⟨⟨HS0, Hrest⟩, Hg⟩, Ho, ⟨%d0, H0⟩, ⟨%d1, H1⟩⟩
    iapply ((runFirst c (grid0.coords t) _ _ _ _ _ _ ((atFirst_iff t).mpr h0) (fun h => h1 ((atLast_iff t).mp h)) (blockAt V c 0 t)).2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (cover_first c _ _ _ _ _ _ _ _ _ _)
        iexact Hrest
      iexact Hg
    isplitl [Ho]; · iexact Ho
    isplitl [H0]; · iexact H0
    iexists _; iexact H1
  · by_cases h1 : t.val = 23
    · rw [show (dat0 V c).leavesExact 1 t = owns (c : Thread nD τ) (outM t) fullShare ((dat0 V c).after 1 t) from by
        unfold Dat.leavesExact; rw [out_live t ((atLast_iff t).mpr h1)], after_out]
      rw [cellAt_last V c t h0 h1, outAt_last V c t h0 h1]
      unfold cellLast outLast; (try dsimp only)
      rw [Phi_castSucc V c t, PhiS_pos V c _ _ h0]
      iintro ⟨⟨⟨HS0, Hrest⟩, Hg⟩, Ho, ⟨%d0, H0⟩, ⟨%d1, H1⟩⟩
      iapply ((runLast c (grid0.coords t) _ _ _ _ _ _ (fun h => h0 ((atFirst_iff t).mp h)) ((atLast_iff t).mpr h1) (blockAt V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (cover_last_cell c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover_last_out c _ _ _ _ _ _ _ _ _ _ _)
    · rw [Dat.leavesExact_idle (dat0 V c) 1 t (out_idle t (fun h => h1 ((atLast_iff t).mp h))) (out_noFlush t (fun h => h1 ((atLast_iff t).mp h)))]
      rw [cellAt_middle V c t h0 h1]
      unfold cellMiddle; (try dsimp only)
      rw [Phi_castSucc V c t, PhiS_pos V c _ _ h0]
      iintro ⟨⟨⟨HS0, Hrest⟩, Hg⟩, Ho, ⟨%d0, H0⟩, ⟨%d1, H1⟩⟩
      iapply ((runMiddle c (grid0.coords t) _ _ _ _ _ _ (fun h => h0 ((atFirst_iff t).mp h)) (fun h => h1 ((atLast_iff t).mp h)) (blockAt V c 0 t) _).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (cover_middle c _ _ _ _ _ _ _ _ _ _ _)
          iexact Hrest
        iexact Hg
      isplitl [Ho]; · iexact Ho
      isplitl [H0]; · iexact H0
      iexists _; iexact H1

/-- The pipeline's body obligation, at every block. -/
theorem body_obligation (c : Dev nD) : BodyObligation (dat0 (F := F) V c) (defs₀ (F := F)) Variants.none () Set.univ := fun t => by
  rw [bigSep_W0, bigSep_W0]
  exact sound_body V c t

/-- What the region is handed is the invariant before the first block. -/
theorem phi_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last block the invariant gives the class invariant back: what the cell holds is forgotten. -/
theorem phi_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 24 := N_0; omega), PhiA_eq]
  iintro ⟨⟨HS0, Hrest⟩, Hg⟩
  isplitl [HS0 Hrest]
  · isplitl [HS0]
    · iexists _; iexact HS0
    iexact Hrest
  iexact Hg

end Cert.Kernel.AbsMax

end
-- ==== Proof.QLinearRegionBits.lean ====
/-
  The second kernel region: at each of its 96 row blocks (512 rows) the body divides the block of activations by
  the scale held in the one-by-one operand, rounds to the nearest even integer, clamps to [-128, 127], multiplies
  by the whole 1024 x 1024 weight operand, adds the one-row integer bias and multiplies by the one-row scale, and
  stores the 512 x 1024 result block. It keeps nothing between blocks. Here: the body's run on any whole buffers, the
  region's proof data over the contents the region is entered with, and the pipeline's obligation at every block.
-/
import proofs.«149211_j12876311953739_1_alg».proof.Proof.Gen.Kernel.Launch
import proofs.«149211_j12876311953739_1_alg».proof.Proof.Gen.Kernel.Skeleton
import proofs.«149211_j12876311953739_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.QLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks -/

/-- Window w's block at point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (an operand fetched once keeps
    the same block index throughout). -/
theorem before0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses and what it stores -/

abbrev rS : Rect S1x1 := Rect.unit (s := S1x1) ![0, 0] S1x1.size inb_S1x1_S1x1_0_0
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rR : Rect S1x1024 := Rect.unit (s := S1x1024) ![0, 0] S1x1024.size inb_S1x1024_S1x1024_0_0

/-- The output block after the body, from the five input blocks: its one store. -/
def outBlock (x0 : Vec F S512x1024 .f32) (x1 : Vec F S1024x1024 .bf16) (x2 : Vec F S1x1024 .f32) (x3 : Vec F S1x1024 .f32) (x4 : Vec F S1x1 .f32) :
    Vec F S512x1024 .f32 :=
  View.canon [⟨rX, k1_pay1 (View.ld x4 rS) (View.ld x0 rX) (View.ld x1 rW) (View.ld x2 rR) (View.ld x3 rR)⟩]

theorem out_cover (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole buffers, the inputs at their contents and the output at anything, leaves the inputs as they
    were and the output at its stored block. -/
theorem sound_kernel (c : Dev nD) (E : Set ℕ) (i : grid1.Coords) (arg1 : Memref sig .tc .vmem S512x1024 .f32) (harg1 : arg1.IsWhole)
    (arg2 : Memref sig .tc .vmem S1024x1024 .bf16) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1 .f32) (harg5 : arg5.IsWhole)
    (arg6 : Memref sig .tc .vmem S512x1024 .f32) (harg6 : arg6.IsWhole)
    (x0 : Vec F S512x1024 .f32) (x1 : Vec F S1024x1024 .bf16) (x2 : Vec F S1x1024 .f32) (x3 : Vec F S1x1024 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc1__qlinear_kernel i arg1 harg1 arg2 harg2 arg3 harg3 arg4 harg4 arg5 harg5 arg6 harg6) K := by
  simp only [cc1__qlinear_kernel_eq_skeleton]; unfold cc1__qlinear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The proof data -/

def dat1 (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => outBlock (blockAt V c 0 t) (blockAt V c 1 t) (blockAt V c 2 t) (blockAt V c 3 t) (blockAt V c 4 t)
  Φ _ := Pipeline.ΦA spec1 c
  q _ := fullShare
  owed _ := 0

theorem A_eq (c : Dev nD) (w : Fin cfg1.W) : (dat1 V c).A w = V c (Pipeline.arrRef spec1 w) := by
  dsimp only [dat1]

theorem after0 (c : Dev nD) (t : Fin cfg1.N) : (dat1 V c).after 0 t = blockAt V c 0 t := by dsimp only [dat1]
theorem after1 (c : Dev nD) (t : Fin cfg1.N) : (dat1 V c).after 1 t = blockAt V c 1 t := by dsimp only [dat1]
theorem after2 (c : Dev nD) (t : Fin cfg1.N) : (dat1 V c).after 2 t = blockAt V c 2 t := by dsimp only [dat1]
theorem after3 (c : Dev nD) (t : Fin cfg1.N) : (dat1 V c).after 3 t = blockAt V c 3 t := by dsimp only [dat1]
theorem after4 (c : Dev nD) (t : Fin cfg1.N) : (dat1 V c).after 4 t = blockAt V c 4 t := by dsimp only [dat1]
theorem after5 (c : Dev nD) (t : Fin cfg1.N) : (dat1 V c).after 5 t
    = outBlock (blockAt V c 0 t) (blockAt V c 1 t) (blockAt V c 2 t) (blockAt V c 3 t) (blockAt V c 4 t) := by dsimp only [dat1]

theorem before0 (c : Dev nD) (t : Fin cfg1.N) (d) : (dat1 V c).before 0 t d = blockAt V c 0 t := before0_of V (dat1 V c) (A_eq V c 0) (after0 V c) t d
theorem before1 (c : Dev nD) (t : Fin cfg1.N) (d) : (dat1 V c).before 1 t d = blockAt V c 1 t := before1_of V (dat1 V c) (A_eq V c 1) (after1 V c) t d
theorem before2 (c : Dev nD) (t : Fin cfg1.N) (d) : (dat1 V c).before 2 t d = blockAt V c 2 t := before2_of V (dat1 V c) (A_eq V c 2) (after2 V c) t d
theorem before3 (c : Dev nD) (t : Fin cfg1.N) (d) : (dat1 V c).before 3 t d = blockAt V c 3 t := before3_of V (dat1 V c) (A_eq V c 3) (after3 V c) t d
theorem before4 (c : Dev nD) (t : Fin cfg1.N) (d) : (dat1 V c).before 4 t d = blockAt V c 4 t := before4_of V (dat1 V c) (A_eq V c 4) (after4 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any block: the inputs' buffers hold their blocks, so the run applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat1 V c).Φ t.succ = (dat1 V c).Φ t.castSucc from rfl,
    show (dat1 V c).owesAt () t.succ = (dat1 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat1 (F := F) V c) (defs₀ (F := F)) Variants.none () Set.univ := fun t => by
  rw [bigSep_W1, bigSep_W1]
  exact sound_body V c t

end Cert.Kernel.QLinear

end
-- ==== Proof.WholeRunBits.lean ====
/-
  The whole program as a run. Between two items of the program every unscoped buffer of a core holds a stated
  value: the launch contents, then each stretch of host operations applied, then, after each kernel region, the
  region's output array at what its write-backs leave. The first region leaves in its one-by-one output what the
  scratch cell held after the last block; the second leaves the 49152 x 1024 result, block by block. Each region
  is entered from, and left at, these buffer contents; the program's run ends with every unscoped buffer at the
  last of them, from which both the unchanged arguments and the result are read.
-/
import proofs.«149211_j12876311953739_1_alg».proof.Proof.AbsMaxRegionBits
import proofs.«149211_j12876311953739_1_alg».proof.Proof.QLinearRegionBits
import proofs.«149211_j12876311953739_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions leave -/

/-- What the first region is entered with: the launch contents after the reshape of the activations. -/
abbrev Vin0 : (c : Dev nD) → (b : Ref sig .tc) → Buf (Elt F) ((c : Thread nD τ).loc b) := fun c b => V1 m c b

/-- The first region's output array after the region: the cell's last contents, written back at the last block. -/
def maxOut (c : Dev nD) : Buf (Elt F) ((c : Thread nD τ).loc main_v1) := (AbsMax.dat0 (Vin0 m) c).arrAt 1 cfg0.N

/-- Any contents, for the places nothing reads. -/
def base : (r : Ref sig .tc) → (c : Dev nD) → Buf (Elt F) ((c : Thread nD τ).loc r) := fun r c => V0 m c r

/-- The regions' leavings with only the first region's known. -/
def outs1 : Outs (F := F) := fun _ => Function.update (base m) main_v1 (maxOut m)

/-- What the second region is entered with. -/
abbrev Vin1 : (c : Dev nD) → (b : Ref sig .tc) → Buf (Elt F) ((c : Thread nD τ).loc b) := fun c b => V9 m (outs1 m) c b

/-- The second region's output array after the region. -/
def linOut (c : Dev nD) : Buf (Elt F) ((c : Thread nD τ).loc main_v27) := (QLinear.dat1 (Vin1 m) c).arrAt 5 cfg1.N

/-- The regions' leavings. -/
def outs : Outs (F := F) := fun j =>
  if j = 10 then Function.update (base m) main_v27 (linOut m) else Function.update (base m) main_v1 (maxOut m)

theorem outs_two (c : Dev nD) : outs m 2 main_v1 c = maxOut m c := by
  unfold outs; rw [if_neg (by decide)]; exact congrFun (Function.update_self ..) c
theorem outs_ten (c : Dev nD) : outs m 10 main_v27 c = linOut m c := by
  unfold outs; rw [if_pos rfl]; exact congrFun (Function.update_self ..) c
/-- Up to the second region's entry only the first region's leavings are read. -/
theorem V9_outs (c : Dev nD) : V9 m (outs m) c = V9 m (outs1 m) c := rfl

theorem V2_v1 (c : Dev nD) : V2 m (outs m) c main_v1 = maxOut m c := by
  unfold V2; rw [Function.update_self]; exact outs_two m c
theorem V10_v27 (c : Dev nD) : V10 m (outs m) c main_v27 = linOut m c := by
  unfold V10; rw [Function.update_self]; exact outs_ten m c

/-! ## The proof data family and the thread state -/

def pdats : (p : Fin 2) → (c : Dev nD) → Dat τ (Elt F) Unit ℕ (UR sig nD τ) ℕ (Pipeline.pin (pcfgs (F := F)) adm p) c
  | ⟨0, _⟩ => fun c => AbsMax.dat0 (Vin0 m) c
  | ⟨1, _⟩ => fun c => QLinear.dat1 (Vin1 m) c

abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Regrouping three separated parts. -/
theorem regroup (A B C : sProp 𝕄) : iprop(A ∗ (B ∗ C)) ⊢ iprop((A ∗ B) ∗ C) := by
  iintro ⟨Ha, Hb, Hc⟩
  isplitl [Ha Hb]
  · isplitl [Ha]; · iexact Ha
    iexact Hb
  iexact Hc

/-! ## The regions' exits: their arrays at what they leave, every other buffer as entered -/

theorem exit0_arr (c : Dev nD) (w : Fin cfg0.W) :
    (pdats m 0 c).arrAt w cfg0.N = V2 m (outs m) c (Pipeline.arrRef spec0 w) := by
  match w with
  | ⟨0, _⟩ =>
    exact (((AbsMax.dat0 (Vin0 m) c).arrAt_in 0 rfl _).trans (AbsMax.A_eq (Vin0 m) c 0)).trans (V2_of m (outs m) c main_v0 (by decide)).symm
  | ⟨1, _⟩ => exact (V2_v1 m c).symm
theorem exit0_rest (c : Dev nD) : ∀ b, b ∉ Finset.univ.image (Pipeline.arrRef spec0) → V2 m (outs m) c b = V1 m c b :=
  fun b hb => V2_of m (outs m) c b (by
    intro h; rw [List.mem_singleton] at h
    exact hb (Finset.mem_image.mpr ⟨1, Finset.mem_univ _, h.symm⟩))

theorem exit1_arr (c : Dev nD) (w : Fin cfg1.W) :
    (pdats m 1 c).arrAt w cfg1.N = V10 m (outs m) c (Pipeline.arrRef spec1 w) := by
  match w with
  | ⟨0, _⟩ => exact (((QLinear.dat1 (Vin1 m) c).arrAt_in 0 rfl _).trans (QLinear.A_eq (Vin1 m) c 0)).trans (V10_of m (outs m) c main_v0 (by decide)).symm
  | ⟨1, _⟩ => exact (((QLinear.dat1 (Vin1 m) c).arrAt_in 1 rfl _).trans (QLinear.A_eq (Vin1 m) c 1)).trans (V10_of m (outs m) c main_v18 (by decide)).symm
  | ⟨2, _⟩ => exact (((QLinear.dat1 (Vin1 m) c).arrAt_in 2 rfl _).trans (QLinear.A_eq (Vin1 m) c 2)).trans (V10_of m (outs m) c main_v25 (by decide)).symm
  | ⟨3, _⟩ => exact (((QLinear.dat1 (Vin1 m) c).arrAt_in 3 rfl _).trans (QLinear.A_eq (Vin1 m) c 3)).trans (V10_of m (outs m) c main_v26 (by decide)).symm
  | ⟨4, _⟩ => exact (((QLinear.dat1 (Vin1 m) c).arrAt_in 4 rfl _).trans (QLinear.A_eq (Vin1 m) c 4)).trans (V10_of m (outs m) c main_v5 (by decide)).symm
  | ⟨5, _⟩ => exact (V10_v27 m c).symm
theorem exit1_rest (c : Dev nD) : ∀ b, b ∉ Finset.univ.image (Pipeline.arrRef spec1) → V10 m (outs m) c b = V9 m (outs m) c b :=
  fun b hb => V10_of m (outs m) c b (by
    intro h; rw [List.mem_singleton] at h
    exact hb (Finset.mem_image.mpr ⟨5, Finset.mem_univ _, h.symm⟩))

/-! ## The regions as segments -/

set_option backward.isDefEq.respectTransparency.types false in
/-- THE FIRST REGION: entered with every unscoped buffer at the contents after the reshape, left with its output array
    at the cell's last contents. Its arrays are split out of the unscoped buffers and put back; the generator register
    and the scoped rest go into the invariant and come back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (AbsMax.body_obligation (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (AbsMax.phi_in (Vin0 m) c)
    unfold Pipeline.ΦA
    iintro ⟨Hp, -, Hr⟩
    isplitl [Hr]; · iexact Hr
    iexact Hp
  hout c := by
    rw [Pipeline.ownSems0_none]
    refine BIBase.Entails.trans (AbsMax.phi_out (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V2 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered with every unscoped buffer at the contents the host operations before it leave, left
    with its output array at the stored blocks. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (QLinear.body_obligation (Vin1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V9_outs]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V10 m (outs m) c b) ((pdats m 1 c).arrAt · cfg1.N) (exit1_arr m c)
      (fun b hb => (exit1_rest m c b hb).trans (congrFun (V9_outs m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting, and
    every final memory holds, in each unscoped buffer of each core, the last of the stated contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V11 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V11 m (outs m) c) ∗ ∃ r, prngReg c r))
    (hch := fun c => ⟨.rfl, .rfl, .rfl, .rfl, .rfl, .rfl, .rfl, .rfl, .rfl, .rfl, .rfl, regroup _ _ _⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V11 m (outs m) c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c)⟩) (run_all m ρ)

end Cert.Kernel.Whole

end
-- ==== Proof.AbsMaxSharedIdeal.lean ====
/-
  The first kernel region keeps the running maximum of |x| in a one-by-one scratch cell while it walks the
  24 row blocks (2048 rows each) of the flattened activations: the cell is reset to zero at the first block,
  replaced by max(cell, max of the block's absolute values) at every block, and copied to the one-by-one
  output at the last block. Here: the two conditions of the body as statements about the block's number,
  where the output window is idle, the buffers the body is called on, and the region's standing invariant
  with the scratch cell named apart from the other scoped buffers.
-/
import proofs.«149211_j12876311953739_1_alg».proof.Proof.Gen.KernelIdeal.Launch
import proofs.«149211_j12876311953739_1_alg».proof.Proof.Gen.KernelIdeal.Skeleton
import proofs.«149211_j12876311953739_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AbsMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body resets the cell exactly when the block's number is zero. -/
abbrev atFirst (i : grid0.Coords) : Prop :=
  (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The body copies the cell to the output exactly when the block's number is 23, the last. -/
abbrev atLast (i : grid0.Coords) : Prop := k0_cond2 i = 1#1
theorem atLast_iff : ∀ t : Fin cfg0.N, atLast (grid0.coords t) ↔ t.val = 23 :=
  (by decide +kernel : ∀ t : Fin grid0.N, atLast (grid0.coords t) ↔ t.val = 23)

/-! ## Where the windows are idle -/

theorem in_live : ∀ t : Fin cfg0.N, cfg0.idle 0 (grid0.coords t) = false := by decide +kernel
theorem out_idle : ∀ t : Fin cfg0.N, ¬atLast (grid0.coords t) → cfg0.idle 1 (grid0.coords t) = true := by decide +kernel
theorem out_noFlush : ∀ t : Fin cfg0.N, ¬atLast (grid0.coords t) → (cfg0.win 1).flush t = false := by decide +kernel
theorem out_live : ∀ t : Fin cfg0.N, atLast (grid0.coords t) → cfg0.idle 1 (grid0.coords t) = false := by decide +kernel

/-! ## The buffers the body is called on -/

abbrev inM (t : Fin cfg0.N) : Memref sig .tc .vmem S2048x1024 .f32 := win0_0.stage (cfg0.slots t 0)
abbrev inM_whole (t : Fin cfg0.N) : (inM t).IsWhole := hstage0_0 ((cfg0.slots t 0).cast nbuf0_0)
abbrev outM (t : Fin cfg0.N) : Memref sig .tc .vmem S1x1 .f32 := win0_1.stage (cfg0.slots t 1)
abbrev outM_whole (t : Fin cfg0.N) : (outM t).IsWhole := hstage0_1 ((cfg0.slots t 1).cast nbuf0_1)
/-- The scratch cell. -/
abbrev cellM : Memref sig .tc .vmem S1x1 .f32 := Memref.whole cc0_scratch0
abbrev cellV : View sig .tc .vmem S1x1 .f32 := cellM.view
/-- A buffer of the output window, through which its contents are stated. -/
abbrev outV : View sig .tc .vmem S1x1 .f32 := (Memref.whole cc0_stg1_0 : Memref sig .tc .vmem S1x1 .f32).view

/-! ## The standing invariant, the cell apart -/

/-- The scoped buffers that are neither this region's staging buffers nor the cell: the second region's eight
    staging buffers, each whole at some contents. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class invariant of the region is: the cell at some contents, the other scoped buffers, the generator register. -/
theorem PhiA_eq (c : Dev nD) :
    (Pipeline.ΦA spec0 c : sProp 𝕄)
      = iprop(((∃ d, owns (c : Thread nD τ) cellM fullShare d) ∗ otherScoped (F := F) c) ∗ (∃ r, prngReg c r)) := by
  unfold Pipeline.ΦA otherScoped; rw [scopedRest0_eq]; simp only [cellM, owns_whole]; try rfl

end Cert.KernelIdeal.AbsMax

end
-- ==== Proof.AbsMaxRunsIdeal.lean ====
/-
  The body of the first region run once per case of its two conditions, on any whole buffers: at the first
  block (the cell is reset, then updated), at a middle block (the cell is updated), at the last block (the cell
  is updated, then copied to the output). Each run names, as a list of written pieces, what the cell — and at
  the last block the output — holds afterwards.
-/
import proofs.«149211_j12876311953739_1_alg».proof.Proof.AbsMaxSharedIdeal

set_option maxRecDepth 16384

noncomputable section

namespace Cert.KernelIdeal.AbsMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST BLOCK: the input block at x0, the output untouched, the cell at anything; afterwards the cell holds its pieces. -/
noncomputable def runFirst (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : atFirst i) (hc1 : ¬atLast i) (x0 : Vec F S2048x1024 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__reduce_max_kernel i arg1 harg1 arg2 harg2 arg3 harg3) K } := by
  refine ⟨?_, fun xi E K => ?run⟩
  case run =>
    simp only [cc0__reduce_max_kernel_eq_skeleton]; unfold cc0__reduce_max_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE BLOCK: the input block at x0, the output untouched, the cell at xs; afterwards the cell holds its pieces. -/
noncomputable def runMiddle (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : ¬atLast i) (x0 : Vec F S2048x1024 .f32) (xs : Vec F S1x1 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi
                ∗ (∃ f, arg3.view.loc (c : Thread nD τ) ↦[arg3.view.set]{fullShare} arg3.view.writes (Elt F) f LS)) -∗ K ⟨⟩))
          ⊢ wp frame (wpE (defs₀ (F := F)) Variants.none c none) E (cc0__reduce_max_kernel i arg1 harg1 arg2 harg2 arg3 harg3) K } := by
  refine ⟨?_, fun xi E K => ?run⟩
  case run =>
    simp only [cc0__reduce_max_kernel_eq_skeleton]; unfold cc0__reduce_max_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST BLOCK: the input block at x0, the output at anything, the cell at xs; afterwards the output and the cell
    hold their pieces. -/
noncomputable def runLast (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : atLast i) (x0 : Vec F S2048x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__reduce_max_kernel i arg1 harg1 arg2 harg2 arg3 harg3) K } := by
  refine ⟨?_, ?_, fun E K => ?run⟩
  case run =>
    simp only [cc0__reduce_max_kernel_eq_skeleton]; unfold cc0__reduce_max_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.AbsMax

end
-- ==== Proof.AbsMaxRegionIdeal.lean ====
/-
  The first region, block by block. After block n the scratch cell holds c(n), with c(0) = what the body leaves
  from a reset cell and block 0, and c(n+1) = what the body leaves from c(n) and block n+1; at the last block the
  output holds a copy of the cell. The region's invariant before block n+1 says the cell holds c(n); with it the
  body's run at every block is the obligation the pipeline asks for.
-/
import proofs.«149211_j12876311953739_1_alg».proof.Proof.AbsMaxRunsIdeal

set_option maxRecDepth 16384

noncomputable section

namespace Cert.KernelIdeal.AbsMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks -/

/-- Window w's block at point t, read off its array as the region finds it: for the input, rows 2048 t to
    2048 t + 2047 of the flattened activations. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over these arrays that leaves
    the block in place. -/
theorem before_in_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What each case leaves -/

section Cases
variable (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)

theorem cover_first (hc0 : atFirst i) (hc1 : ¬atLast i) (x0 : Vec F S2048x1024 .f32) (y : S1x1.Idx) :
    ∃ pc ∈ (runFirst c i arg1 harg1 arg2 harg2 arg3 harg3 hc0 hc1 x0).1, y ∈ pc.1.set :=
  View.cover_of_tiledL (runFirst c i arg1 harg1 arg2 harg2 arg3 harg3 hc0 hc1 x0).1 S1x1.size (by sl_kernel_rfl) y
/-- The cell after the first block. -/
def cellFirst (hc0 : atFirst i) (hc1 : ¬atLast i) (x0 : Vec F S2048x1024 .f32) : Vec F S1x1 .f32 :=
  cellV.read (Elt F) (cellV.writes (Elt F) cellV.junk (runFirst c i arg1 harg1 arg2 harg2 arg3 harg3 hc0 hc1 x0).1)

theorem cover_middle (hc0 : ¬atFirst i) (hc1 : ¬atLast i) (x0 : Vec F S2048x1024 .f32) (xs : Vec F S1x1 .f32) (y : S1x1.Idx) :
    ∃ pc ∈ (runMiddle c i arg1 harg1 arg2 harg2 arg3 harg3 hc0 hc1 x0 xs).1, y ∈ pc.1.set :=
  View.cover_of_tiledL (runMiddle c i arg1 harg1 arg2 harg2 arg3 harg3 hc0 hc1 x0 xs).1 S1x1.size (by sl_kernel_rfl) y
/-- The cell after a middle block, from what the block before left. -/
def cellMiddle (hc0 : ¬atFirst i) (hc1 : ¬atLast i) (x0 : Vec F S2048x1024 .f32) (xs : Vec F S1x1 .f32) : Vec F S1x1 .f32 :=
  cellV.read (Elt F) (cellV.writes (Elt F) cellV.junk (runMiddle c i arg1 harg1 arg2 harg2 arg3 harg3 hc0 hc1 x0 xs).1)

theorem cover_last_cell (hc0 : ¬atFirst i) (hc1 : atLast i) (x0 : Vec F S2048x1024 .f32) (xs : Vec F S1x1 .f32) (y : S1x1.Idx) :
    ∃ pc ∈ (runLast c i arg1 harg1 arg2 harg2 arg3 harg3 hc0 hc1 x0 xs).2.1, y ∈ pc.1.set :=
  View.cover_of_tiledL (runLast c i arg1 harg1 arg2 harg2 arg3 harg3 hc0 hc1 x0 xs).2.1 S1x1.size (by sl_kernel_rfl) y
/-- The cell after the last block. -/
def cellLast (hc0 : ¬atFirst i) (hc1 : atLast i) (x0 : Vec F S2048x1024 .f32) (xs : Vec F S1x1 .f32) : Vec F S1x1 .f32 :=
  cellV.read (Elt F) (cellV.writes (Elt F) cellV.junk (runLast c i arg1 harg1 arg2 harg2 arg3 harg3 hc0 hc1 x0 xs).2.1)

theorem cover_last_out (hc0 : ¬atFirst i) (hc1 : atLast i) (x0 : Vec F S2048x1024 .f32) (xs : Vec F S1x1 .f32) (y : S1x1.Idx) :
    ∃ pc ∈ (runLast c i arg1 harg1 arg2 harg2 arg3 harg3 hc0 hc1 x0 xs).1, y ∈ pc.1.set :=
  View.cover_of_tiledL (runLast c i arg1 harg1 arg2 harg2 arg3 harg3 hc0 hc1 x0 xs).1 S1x1.size (by sl_kernel_rfl) y
/-- The output after the last block. -/
def outLast (hc0 : ¬atFirst i) (hc1 : atLast i) (x0 : Vec F S2048x1024 .f32) (xs : Vec F S1x1 .f32) : Vec F S1x1 .f32 :=
  outV.read (Elt F) (outV.writes (Elt F) outV.junk (runLast c i arg1 harg1 arg2 harg2 arg3 harg3 hc0 hc1 x0 xs).1)

end Cases

/-! ## The cell after each block -/

/-- THE RECURRENCE: the cell after block n. -/
def cellAt (c : Dev nD) : (n : ℕ) → n < cfg0.N → Vec F S1x1 .f32
  | 0, hn => cellFirst c (grid0.coords ⟨0, hn⟩) (inM ⟨0, hn⟩) (inM_whole ⟨0, hn⟩) (outM ⟨0, hn⟩) (outM_whole ⟨0, hn⟩) cellM (Memref.isWhole_whole _) ((atFirst_iff ⟨0, hn⟩).mpr rfl)
      (fun h => absurd ((atLast_iff ⟨0, hn⟩).mp h) (show ¬(0 : ℕ) = 23 by decide)) (blockAt V c 0 ⟨0, hn⟩)
  | n + 1, hn =>
    if h1 : n + 1 = 23 then
      cellLast c (grid0.coords ⟨n + 1, hn⟩) (inM ⟨n + 1, hn⟩) (inM_whole ⟨n + 1, hn⟩) (outM ⟨n + 1, hn⟩) (outM_whole ⟨n + 1, hn⟩) cellM (Memref.isWhole_whole _) (fun h => absurd ((atFirst_iff ⟨n + 1, hn⟩).mp h) (Nat.succ_ne_zero n))
        ((atLast_iff ⟨n + 1, hn⟩).mpr h1) (blockAt V c 0 ⟨n + 1, hn⟩) (cellAt c n (Nat.lt_of_succ_lt hn))
    else
      cellMiddle c (grid0.coords ⟨n + 1, hn⟩) (inM ⟨n + 1, hn⟩) (inM_whole ⟨n + 1, hn⟩) (outM ⟨n + 1, hn⟩) (outM_whole ⟨n + 1, hn⟩) cellM (Memref.isWhole_whole _) (fun h => absurd ((atFirst_iff ⟨n + 1, hn⟩).mp h) (Nat.succ_ne_zero n))
        (fun h => h1 ((atLast_iff ⟨n + 1, hn⟩).mp h)) (blockAt V c 0 ⟨n + 1, hn⟩) (cellAt c n (Nat.lt_of_succ_lt hn))

theorem cellAt_first (c : Dev nD) (t : Fin cfg0.N) (h0 : t.val = 0) (h1 : ¬t.val = 23) :
    cellAt V c t.val t.isLt = cellFirst c (grid0.coords t) (inM t) (inM_whole t) (outM t) (outM_whole t) cellM (Memref.isWhole_whole _) ((atFirst_iff t).mpr h0) (fun h => h1 ((atLast_iff t).mp h)) (blockAt V c 0 t) := by
  obtain ⟨n, hn⟩ := t
  cases n with
  | zero => exact rfl
  | succ n => exact absurd h0 (Nat.succ_ne_zero n)

theorem cellAt_middle (c : Dev nD) (t : Fin cfg0.N) (h0 : ¬t.val = 0) (h1 : ¬t.val = 23) :
    cellAt V c t.val t.isLt = cellMiddle c (grid0.coords t) (inM t) (inM_whole t) (outM t) (outM_whole t) cellM (Memref.isWhole_whole _) (fun h => h0 ((atFirst_iff t).mp h)) (fun h => h1 ((atLast_iff t).mp h)) (blockAt V c 0 t)
      (cellAt V c (t.val - 1) (Nat.lt_of_le_of_lt (Nat.sub_le _ _) t.isLt)) := by
  obtain ⟨n, hn⟩ := t
  cases n with
  | zero => exact absurd rfl h0
  | succ n => exact (dif_neg h1).trans rfl

theorem cellAt_last (c : Dev nD) (t : Fin cfg0.N) (h0 : ¬t.val = 0) (h1 : t.val = 23) :
    cellAt V c t.val t.isLt = cellLast c (grid0.coords t) (inM t) (inM_whole t) (outM t) (outM_whole t) cellM (Memref.isWhole_whole _) (fun h => h0 ((atFirst_iff t).mp h)) ((atLast_iff t).mpr h1) (blockAt V c 0 t)
      (cellAt V c (t.val - 1) (Nat.lt_of_le_of_lt (Nat.sub_le _ _) t.isLt)) := by
  obtain ⟨n, hn⟩ := t
  cases n with
  | zero => exact absurd rfl h0
  | succ n => exact (dif_pos h1).trans rfl

/-- The output after block t: at the last block the copy of the cell; elsewhere the window is idle and nothing reads this. -/
def outAt (c : Dev nD) (t : Fin cfg0.N) : Vec F S1x1 .f32 :=
  if h1 : t.val = 23 then
    outLast c (grid0.coords t) (inM t) (inM_whole t) (outM t) (outM_whole t) cellM (Memref.isWhole_whole _) (fun h => absurd (((atFirst_iff t).mp h).symm.trans h1) (by decide)) ((atLast_iff t).mpr h1) (blockAt V c 0 t)
      (cellAt V c (t.val - 1) (Nat.lt_of_le_of_lt (Nat.sub_le _ _) t.isLt))
  else outV.read (Elt F) outV.junk

theorem outAt_last (c : Dev nD) (t : Fin cfg0.N) (h0 : ¬t.val = 0) (h1 : t.val = 23) :
    outAt V c t = outLast c (grid0.coords t) (inM t) (inM_whole t) (outM t) (outM_whole t) cellM (Memref.isWhole_whole _) (fun h => h0 ((atFirst_iff t).mp h)) ((atLast_iff t).mpr h1) (blockAt V c 0 t)
      (cellAt V c (t.val - 1) (Nat.lt_of_le_of_lt (Nat.sub_le _ _) t.isLt)) := by
  unfold outAt; exact (dif_pos h1).trans rfl

/-! ## The invariant -/

/-- Before block n: at n = 0 the class invariant (the cell at anything); afterwards the cell at what block n - 1 left,
    the other scoped buffers and the generator register. -/
def PhiS (c : Dev nD) : (n : ℕ) → n ≤ cfg0.N → sProp 𝕄
  | 0, _ => Pipeline.ΦA spec0 c
  | n + 1, hn => iprop((owns (c : Thread nD τ) cellM fullShare (cellAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) cellM fullShare (cellAt V c n hn) ∗ otherScoped (F := F) c) ∗ (∃ r, prngReg c r)) := rfl
theorem PhiS_pos (c : Dev nD) (n : ℕ) (h : n ≤ cfg0.N) (hz : n ≠ 0) :
    PhiS V c n h = iprop((owns (c : Thread nD τ) cellM fullShare (cellAt V c (n - 1) (by omega)) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => outAt V c t
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]
theorem Phi_castSucc (c : Dev nD) (t : Fin cfg0.N) :
    (dat0 V c).Φ t.castSucc = PhiS V c t.val (Nat.le_of_lt t.isLt) := by
  dsimp only [dat0]; simp only [Fin.coe_castSucc]
theorem after_in (c : Dev nD) (t : Fin cfg0.N) : (dat0 V c).after 0 t = blockAt V c 0 t := by dsimp only [dat0]
theorem after_out (c : Dev nD) (t : Fin cfg0.N) : (dat0 V c).after 1 t = outAt V c t := by dsimp only [dat0]
theorem before_in (c : Dev nD) (t : Fin cfg0.N) (d) : (dat0 V c).before 0 t d = blockAt V c 0 t :=
  before_in_of V (dat0 V c) (A_eq V c 0) (after_in V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (inM t) fullShare ((dat0 V c).before 0 t d))
    ∗ (∃ d, owns (c : Thread nD τ) (outM t) fullShare ((dat0 V c).before 1 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any block: the input's buffer holds the block; the block's number says which case it is; the invariant
    hands the cell over at what the block before left (at anything, at the first block) and takes it back at this
    block's contents; nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat0 V c).owesAt () t.succ = (dat0 V c).owesAt () t.castSucc from rfl]
  rw [show (dat0 V c).Φ t.succ = PhiS V c (t.val + 1) t.isLt from rfl, PhiS_succ]
  have hN : t.val < 24 := lt_of_lt_of_eq t.isLt (show cfg0.N = 24 from N_0)
  rw [show (dat0 V c).leavesExact 0 t = owns (c : Thread nD τ) (inM t) fullShare ((dat0 V c).after 0 t) from by
    unfold Dat.leavesExact; rw [in_live t], after_in]
  by_cases h0 : t.val = 0
  · have h1 : ¬t.val = 23 := by omega
    rw [Dat.leavesExact_idle (dat0 V c) 1 t (out_idle t (fun h => h1 ((atLast_iff t).mp h))) (out_noFlush t (fun h => h1 ((atLast_iff t).mp h)))]
    rw [cellAt_first V c t h0 h1]
    unfold cellFirst; (try dsimp only)
    rw [Phi_castSucc V c t, PhiS_zero V c _ _ h0, PhiA_eq]
    iintro ⟨⟨⟨HS0, Hrest⟩, Hg⟩, Ho, ⟨%d0, H0⟩, ⟨%d1, H1⟩⟩
    iapply ((runFirst c (grid0.coords t) _ _ _ _ _ _ ((atFirst_iff t).mpr h0) (fun h => h1 ((atLast_iff t).mp h)) (blockAt V c 0 t)).2 _ Set.univ _)
    isplitl [H0]; · iexact H0
    isplitl [H1]; · iexact H1
    isplitl [HS0]; · iexact HS0
    iintro ⟨H0, H1, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (cover_first c _ _ _ _ _ _ _ _ _ _)
        iexact Hrest
      iexact Hg
    isplitl [Ho]; · iexact Ho
    isplitl [H0]; · iexact H0
    iexists _; iexact H1
  · by_cases h1 : t.val = 23
    · rw [show (dat0 V c).leavesExact 1 t = owns (c : Thread nD τ) (outM t) fullShare ((dat0 V c).after 1 t) from by
        unfold Dat.leavesExact; rw [out_live t ((atLast_iff t).mpr h1)], after_out]
      rw [cellAt_last V c t h0 h1, outAt_last V c t h0 h1]
      unfold cellLast outLast; (try dsimp only)
      rw [Phi_castSucc V c t, PhiS_pos V c _ _ h0]
      iintro ⟨⟨⟨HS0, Hrest⟩, Hg⟩, Ho, ⟨%d0, H0⟩, ⟨%d1, H1⟩⟩
      iapply ((runLast c (grid0.coords t) _ _ _ _ _ _ (fun h => h0 ((atFirst_iff t).mp h)) ((atLast_iff t).mpr h1) (blockAt V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (cover_last_cell c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover_last_out c _ _ _ _ _ _ _ _ _ _ _)
    · rw [Dat.leavesExact_idle (dat0 V c) 1 t (out_idle t (fun h => h1 ((atLast_iff t).mp h))) (out_noFlush t (fun h => h1 ((atLast_iff t).mp h)))]
      rw [cellAt_middle V c t h0 h1]
      unfold cellMiddle; (try dsimp only)
      rw [Phi_castSucc V c t, PhiS_pos V c _ _ h0]
      iintro ⟨⟨⟨HS0, Hrest⟩, Hg⟩, Ho, ⟨%d0, H0⟩, ⟨%d1, H1⟩⟩
      iapply ((runMiddle c (grid0.coords t) _ _ _ _ _ _ (fun h => h0 ((atFirst_iff t).mp h)) (fun h => h1 ((atLast_iff t).mp h)) (blockAt V c 0 t) _).2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (cover_middle c _ _ _ _ _ _ _ _ _ _ _)
          iexact Hrest
        iexact Hg
      isplitl [Ho]; · iexact Ho
      isplitl [H0]; · iexact H0
      iexists _; iexact H1

/-- The pipeline's body obligation, at every block. -/
theorem body_obligation (c : Dev nD) : BodyObligation (dat0 (F := F) V c) (defs₀ (F := F)) Variants.none () Set.univ := fun t => by
  rw [bigSep_W0, bigSep_W0]
  exact sound_body V c t

/-- What the region is handed is the invariant before the first block. -/
theorem phi_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last block the invariant gives the class invariant back: what the cell holds is forgotten. -/
theorem phi_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 24 := N_0; omega), PhiA_eq]
  iintro ⟨⟨HS0, Hrest⟩, Hg⟩
  isplitl [HS0 Hrest]
  · isplitl [HS0]
    · iexists _; iexact HS0
    iexact Hrest
  iexact Hg

end Cert.KernelIdeal.AbsMax

end
-- ==== Proof.QLinearRegionIdeal.lean ====
/-
  The second kernel region: at each of its 96 row blocks (512 rows) the body divides the block of activations by
  the scale held in the one-by-one operand, rounds to the nearest even integer, clamps to [-128, 127], multiplies
  by the whole 1024 x 1024 weight operand, adds the one-row integer bias and multiplies by the one-row scale, and
  stores the 512 x 1024 result block. It keeps nothing between blocks. Here: the body's run on any whole buffers, the
  region's proof data over the contents the region is entered with, and the pipeline's obligation at every block.
-/
import proofs.«149211_j12876311953739_1_alg».proof.Proof.Gen.KernelIdeal.Launch
import proofs.«149211_j12876311953739_1_alg».proof.Proof.Gen.KernelIdeal.Skeleton
import proofs.«149211_j12876311953739_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.QLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The blocks -/

/-- Window w's block at point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (an operand fetched once keeps
    the same block index throughout). -/
theorem before0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses and what it stores -/

abbrev rS : Rect S1x1 := Rect.unit (s := S1x1) ![0, 0] S1x1.size inb_S1x1_S1x1_0_0
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rR : Rect S1x1024 := Rect.unit (s := S1x1024) ![0, 0] S1x1024.size inb_S1x1024_S1x1024_0_0

/-- The output block after the body, from the five input blocks: its one store. -/
def outBlock (x0 : Vec F S512x1024 .f32) (x1 : Vec F S1024x1024 .bf16) (x2 : Vec F S1x1024 .f32) (x3 : Vec F S1x1024 .f32) (x4 : Vec F S1x1 .f32) :
    Vec F S512x1024 .f32 :=
  View.canon [⟨rX, k1_pay1 (View.ld x4 rS) (View.ld x0 rX) (View.ld x1 rW) (View.ld x2 rR) (View.ld x3 rR)⟩]

theorem out_cover (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 1000000 in
/-- The body on whole buffers, the inputs at their contents and the output at anything, leaves the inputs as they
    were and the output at its stored block. -/
theorem sound_kernel (c : Dev nD) (E : Set ℕ) (i : grid1.Coords) (arg1 : Memref sig .tc .vmem S512x1024 .f32) (harg1 : arg1.IsWhole)
    (arg2 : Memref sig .tc .vmem S1024x1024 .bf16) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1 .f32) (harg5 : arg5.IsWhole)
    (arg6 : Memref sig .tc .vmem S512x1024 .f32) (harg6 : arg6.IsWhole)
    (x0 : Vec F S512x1024 .f32) (x1 : Vec F S1024x1024 .bf16) (x2 : Vec F S1x1024 .f32) (x3 : Vec F S1x1024 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc1__qlinear_kernel i arg1 harg1 arg2 harg2 arg3 harg3 arg4 harg4 arg5 harg5 arg6 harg6) K := by
  simp only [cc1__qlinear_kernel_eq_skeleton]; unfold cc1__qlinear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The proof data -/

def dat1 (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => outBlock (blockAt V c 0 t) (blockAt V c 1 t) (blockAt V c 2 t) (blockAt V c 3 t) (blockAt V c 4 t)
  Φ _ := Pipeline.ΦA spec1 c
  q _ := fullShare
  owed _ := 0

theorem A_eq (c : Dev nD) (w : Fin cfg1.W) : (dat1 V c).A w = V c (Pipeline.arrRef spec1 w) := by
  dsimp only [dat1]

theorem after0 (c : Dev nD) (t : Fin cfg1.N) : (dat1 V c).after 0 t = blockAt V c 0 t := by dsimp only [dat1]
theorem after1 (c : Dev nD) (t : Fin cfg1.N) : (dat1 V c).after 1 t = blockAt V c 1 t := by dsimp only [dat1]
theorem after2 (c : Dev nD) (t : Fin cfg1.N) : (dat1 V c).after 2 t = blockAt V c 2 t := by dsimp only [dat1]
theorem after3 (c : Dev nD) (t : Fin cfg1.N) : (dat1 V c).after 3 t = blockAt V c 3 t := by dsimp only [dat1]
theorem after4 (c : Dev nD) (t : Fin cfg1.N) : (dat1 V c).after 4 t = blockAt V c 4 t := by dsimp only [dat1]
theorem after5 (c : Dev nD) (t : Fin cfg1.N) : (dat1 V c).after 5 t
    = outBlock (blockAt V c 0 t) (blockAt V c 1 t) (blockAt V c 2 t) (blockAt V c 3 t) (blockAt V c 4 t) := by dsimp only [dat1]

theorem before0 (c : Dev nD) (t : Fin cfg1.N) (d) : (dat1 V c).before 0 t d = blockAt V c 0 t := before0_of V (dat1 V c) (A_eq V c 0) (after0 V c) t d
theorem before1 (c : Dev nD) (t : Fin cfg1.N) (d) : (dat1 V c).before 1 t d = blockAt V c 1 t := before1_of V (dat1 V c) (A_eq V c 1) (after1 V c) t d
theorem before2 (c : Dev nD) (t : Fin cfg1.N) (d) : (dat1 V c).before 2 t d = blockAt V c 2 t := before2_of V (dat1 V c) (A_eq V c 2) (after2 V c) t d
theorem before3 (c : Dev nD) (t : Fin cfg1.N) (d) : (dat1 V c).before 3 t d = blockAt V c 3 t := before3_of V (dat1 V c) (A_eq V c 3) (after3 V c) t d
theorem before4 (c : Dev nD) (t : Fin cfg1.N) (d) : (dat1 V c).before 4 t d = blockAt V c 4 t := before4_of V (dat1 V c) (A_eq V c 4) (after4 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any block: the inputs' buffers hold their blocks, so the run applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat1 V c).Φ t.succ = (dat1 V c).Φ t.castSucc from rfl,
    show (dat1 V c).owesAt () t.succ = (dat1 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat1 (F := F) V c) (defs₀ (F := F)) Variants.none () Set.univ := fun t => by
  rw [bigSep_W1, bigSep_W1]
  exact sound_body V c t

end Cert.KernelIdeal.QLinear

end
-- ==== Proof.WholeRunIdeal.lean ====
/-
  The whole program as a run. Between two items of the program every unscoped buffer of a core holds a stated
  value: the launch contents, then each stretch of host operations applied, then, after each kernel region, the
  region's output array at what its write-backs leave. The first region leaves in its one-by-one output what the
  scratch cell held after the last block; the second leaves the 49152 x 1024 result, block by block. Each region
  is entered from, and left at, these buffer contents; the program's run ends with every unscoped buffer at the
  last of them, from which both the unchanged arguments and the result are read.
-/
import proofs.«149211_j12876311953739_1_alg».proof.Proof.AbsMaxRegionIdeal
import proofs.«149211_j12876311953739_1_alg».proof.Proof.QLinearRegionIdeal
import proofs.«149211_j12876311953739_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions leave -/

/-- What the first region is entered with: the launch contents after the reshape of the activations. -/
abbrev Vin0 : (c : Dev nD) → (b : Ref sig .tc) → Buf (Elt F) ((c : Thread nD τ).loc b) := fun c b => V1 m c b

/-- The first region's output array after the region: the cell's last contents, written back at the last block. -/
def maxOut (c : Dev nD) : Buf (Elt F) ((c : Thread nD τ).loc main_v1) := (AbsMax.dat0 (Vin0 m) c).arrAt 1 cfg0.N

/-- Any contents, for the places nothing reads. -/
def base : (r : Ref sig .tc) → (c : Dev nD) → Buf (Elt F) ((c : Thread nD τ).loc r) := fun r c => V0 m c r

/-- The regions' leavings with only the first region's known. -/
def outs1 : Outs (F := F) := fun _ => Function.update (base m) main_v1 (maxOut m)

/-- What the second region is entered with. -/
abbrev Vin1 : (c : Dev nD) → (b : Ref sig .tc) → Buf (Elt F) ((c : Thread nD τ).loc b) := fun c b => V9 m (outs1 m) c b

/-- The second region's output array after the region. -/
def linOut (c : Dev nD) : Buf (Elt F) ((c : Thread nD τ).loc main_v27) := (QLinear.dat1 (Vin1 m) c).arrAt 5 cfg1.N

/-- The regions' leavings. -/
def outs : Outs (F := F) := fun j =>
  if j = 10 then Function.update (base m) main_v27 (linOut m) else Function.update (base m) main_v1 (maxOut m)

theorem outs_two (c : Dev nD) : outs m 2 main_v1 c = maxOut m c := by
  unfold outs; rw [if_neg (by decide)]; exact congrFun (Function.update_self ..) c
theorem outs_ten (c : Dev nD) : outs m 10 main_v27 c = linOut m c := by
  unfold outs; rw [if_pos rfl]; exact congrFun (Function.update_self ..) c
/-- Up to the second region's entry only the first region's leavings are read. -/
theorem V9_outs (c : Dev nD) : V9 m (outs m) c = V9 m (outs1 m) c := rfl

theorem V2_v1 (c : Dev nD) : V2 m (outs m) c main_v1 = maxOut m c := by
  unfold V2; rw [Function.update_self]; exact outs_two m c
theorem V10_v27 (c : Dev nD) : V10 m (outs m) c main_v27 = linOut m c := by
  unfold V10; rw [Function.update_self]; exact outs_ten m c

/-! ## The proof data family and the thread state -/

def pdats : (p : Fin 2) → (c : Dev nD) → Dat τ (Elt F) Unit ℕ (UR sig nD τ) ℕ (Pipeline.pin (pcfgs (F := F)) adm p) c
  | ⟨0, _⟩ => fun c => AbsMax.dat0 (Vin0 m) c
  | ⟨1, _⟩ => fun c => QLinear.dat1 (Vin1 m) c

abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Regrouping three separated parts. -/
theorem regroup (A B C : sProp 𝕄) : iprop(A ∗ (B ∗ C)) ⊢ iprop((A ∗ B) ∗ C) := by
  iintro ⟨Ha, Hb, Hc⟩
  isplitl [Ha Hb]
  · isplitl [Ha]; · iexact Ha
    iexact Hb
  iexact Hc

/-! ## The regions' exits: their arrays at what they leave, every other buffer as entered -/

theorem exit0_arr (c : Dev nD) (w : Fin cfg0.W) :
    (pdats m 0 c).arrAt w cfg0.N = V2 m (outs m) c (Pipeline.arrRef spec0 w) := by
  match w with
  | ⟨0, _⟩ =>
    exact (((AbsMax.dat0 (Vin0 m) c).arrAt_in 0 rfl _).trans (AbsMax.A_eq (Vin0 m) c 0)).trans (V2_of m (outs m) c main_v0 (by decide)).symm
  | ⟨1, _⟩ => exact (V2_v1 m c).symm
theorem exit0_rest (c : Dev nD) : ∀ b, b ∉ Finset.univ.image (Pipeline.arrRef spec0) → V2 m (outs m) c b = V1 m c b :=
  fun b hb => V2_of m (outs m) c b (by
    intro h; rw [List.mem_singleton] at h
    exact hb (Finset.mem_image.mpr ⟨1, Finset.mem_univ _, h.symm⟩))

theorem exit1_arr (c : Dev nD) (w : Fin cfg1.W) :
    (pdats m 1 c).arrAt w cfg1.N = V10 m (outs m) c (Pipeline.arrRef spec1 w) := by
  match w with
  | ⟨0, _⟩ => exact (((QLinear.dat1 (Vin1 m) c).arrAt_in 0 rfl _).trans (QLinear.A_eq (Vin1 m) c 0)).trans (V10_of m (outs m) c main_v0 (by decide)).symm
  | ⟨1, _⟩ => exact (((QLinear.dat1 (Vin1 m) c).arrAt_in 1 rfl _).trans (QLinear.A_eq (Vin1 m) c 1)).trans (V10_of m (outs m) c main_v18 (by decide)).symm
  | ⟨2, _⟩ => exact (((QLinear.dat1 (Vin1 m) c).arrAt_in 2 rfl _).trans (QLinear.A_eq (Vin1 m) c 2)).trans (V10_of m (outs m) c main_v25 (by decide)).symm
  | ⟨3, _⟩ => exact (((QLinear.dat1 (Vin1 m) c).arrAt_in 3 rfl _).trans (QLinear.A_eq (Vin1 m) c 3)).trans (V10_of m (outs m) c main_v26 (by decide)).symm
  | ⟨4, _⟩ => exact (((QLinear.dat1 (Vin1 m) c).arrAt_in 4 rfl _).trans (QLinear.A_eq (Vin1 m) c 4)).trans (V10_of m (outs m) c main_v5 (by decide)).symm
  | ⟨5, _⟩ => exact (V10_v27 m c).symm
theorem exit1_rest (c : Dev nD) : ∀ b, b ∉ Finset.univ.image (Pipeline.arrRef spec1) → V10 m (outs m) c b = V9 m (outs m) c b :=
  fun b hb => V10_of m (outs m) c b (by
    intro h; rw [List.mem_singleton] at h
    exact hb (Finset.mem_image.mpr ⟨5, Finset.mem_univ _, h.symm⟩))

/-! ## The regions as segments -/

set_option backward.isDefEq.respectTransparency.types false in
/-- THE FIRST REGION: entered with every unscoped buffer at the contents after the reshape, left with its output array
    at the cell's last contents. Its arrays are split out of the unscoped buffers and put back; the generator register
    and the scoped rest go into the invariant and come back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (AbsMax.body_obligation (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (AbsMax.phi_in (Vin0 m) c)
    unfold Pipeline.ΦA
    iintro ⟨Hp, -, Hr⟩
    isplitl [Hr]; · iexact Hr
    iexact Hp
  hout c := by
    rw [Pipeline.ownSems0_none]
    refine BIBase.Entails.trans (AbsMax.phi_out (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V2 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered with every unscoped buffer at the contents the host operations before it leave, left
    with its output array at the stored blocks. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (QLinear.body_obligation (Vin1 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V9_outs]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V10 m (outs m) c b) ((pdats m 1 c).arrAt · cfg1.N) (exit1_arr m c)
      (fun b hb => (exit1_rest m c b hb).trans (congrFun (V9_outs m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of the program terminates, nothing faulting, and
    every final memory holds, in each unscoped buffer of each core, the last of the stated contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V11 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V11 m (outs m) c) ∗ ∃ r, prngReg c r))
    (hch := fun c => ⟨.rfl, .rfl, .rfl, .rfl, .rfl, .rfl, .rfl, .rfl, .rfl, .rfl, .rfl, regroup _ _ _⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V11 m (outs m) c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c)⟩) (run_all m ρ)

end Cert.KernelIdeal.Whole

end
-- ==== Proof.QuantSpec.lean ====
/-
  What both programs compute, as one function of the three argument arrays over the extended reals.
  With M = max over all entries of |x|, the activations' scale is s = max(M, eps) / 127; with m(o) the maximum of
  |w(o, .)| over row o of the weight, the row's scale is u(o) = max(m(o), eps) / 127. Entries are quantised by
  dividing by the scale, rounding half to even and clamping to [-128, 127]; the bias is divided by u(o) s and rounded.
  The result at (l, b, q, o) is
      ( sum over k of  quant(x(l,b,q,k) / s) * quant(w(o,k) / u(o))  +  round(bias(o) / (u(o) s)) ) * (u(o) s).
  The rows' maxima m are a parameter here: both programs compute them by one and the same host reduction.
-/
import Idealize.ShloMosaic.PureOps.Ideal
import Idealize.ShloMosaic.Lib.ValueIdx

noncomputable section

namespace Cert.QuantSpec

open Idealize.ShloMosaic Idealize.ShloMosaic.ValueIdx

abbrev SX : Shape := ⟨4, ![6, 8, 1024, 1024]⟩
abbrev SW : Shape := ⟨2, ![1024, 1024]⟩
abbrev SB : Shape := ⟨1, ![1024]⟩

/-- The small positive constant the scales are kept above (the single-precision word nearest 1e-8). -/
def eps : EReal := Ideal.ofBits .f32 0x322BCC77#32
/-- 127, as the programs spell the divisor. -/
def c127 : EReal := Ideal.ofBits .f32 0x42FE0000#32

/-- The largest absolute value among all entries of the activations. -/
def absMax (X : SX.Idx → EReal) : EReal := (Finset.univ : Finset SX.Idx).fold max ⊥ (fun i => max (X i) (-(X i)))

/-- A scale from a maximum: max(M, eps) / 127. -/
def scaleOf (M : EReal) : EReal := Ideal.div (max M eps) c127

/-- Rounding half to even. -/
def rnd (y : EReal) : EReal := Ideal.liftRound Ideal.roundHalfEven y

/-- Clamping to [-128, 127]. -/
def clip (y : EReal) : EReal := min ((127 : ℝ) : EReal) (max ((-128 : ℝ) : EReal) y)

/-- A quantised entry: divide by the scale, round, clamp. -/
def quant (v s : EReal) : EReal := clip (rnd (Ideal.div v s))

/-- THE RESULT at (l, b, q, o). -/
def G (X : SX.Idx → EReal) (W : SW.Idx → EReal) (B : SB.Idx → EReal) (mw : SB.Idx → EReal)
    (l : Fin 6) (b : Fin 8) (q : Fin 1024) (o : Fin 1024) : EReal :=
  ((∑ k : Fin 1024, quant (X (ix4 l b q k)) (scaleOf (absMax X)) * quant (W (ix2 o k)) (scaleOf (mw (ix1 o))))
      + rnd (Ideal.div (B (ix1 o)) (scaleOf (mw (ix1 o)) * scaleOf (absMax X))))
    * (scaleOf (mw (ix1 o)) * scaleOf (absMax X))

end Cert.QuantSpec

end
-- ==== Proof.AbsMaxValueIdeal.lean ====
/-
  The running maximum of the first region is the largest absolute value of the activations. Each run of the body
  leaves in the scratch cell one pure term of the block and of what the cell held; over the extended reals that term
  is max(cell, the block's largest |x|), and the reset value is 0. So after block n the cell is the least upper bound
  of 0 and of |x| over the rows of blocks 0..n; the 24 blocks are the rows of the flattened activations, the
  flattening is row-major, and |x| is never negative: after the last block the cell, and the copy of it written to
  the one-by-one output, is the maximum of |x| over every entry.
-/
import proofs.«149211_j12876311953739_1_alg».proof.Proof.AbsMaxRegionIdeal
import proofs.«149211_j12876311953739_1_alg».proof.Proof.QuantSpec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.KernelIdeal.AbsMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What each run leaves is the body's one pure term -/

section Pieces
variable {F : FTy → Type} [FloatOps F]

/-- The rectangles the body loads and stores through sit at zero offsets. -/
theorem hz : (![0, 0] : Fin 2 → Nat) = fun _ => 0 := funext fun a => by fin_cases a <;> rfl

/-- At the first block the cell is reset, read back, and updated from the block. -/
theorem cellFirst_eq (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : atFirst i) (hc1 : ¬atLast i) (x0 : Vec F S2048x1024 .f32) :
    cellFirst c i arg1 harg1 arg2 harg2 arg3 harg3 hc0 hc1 x0 = k0_pay2 x0 k0_pay1 := by
  unfold cellFirst
  rw [View.read_writes_eq_canon _ _ _ (cover_first c i arg1 harg1 arg2 harg2 arg3 harg3 hc0 hc1 x0)]
  unfold runFirst
  dsimp only
  sl_unfold_words
  rw [View.canon_cons_unit_zero (S := S1x1) hz, View.readCov_unit_zero (S := S1x1) _ hz]
  simp only [View.readAt_eq_ld, harg1.read_unread, View.ld_unit_zero (S := S2048x1024) hz]

/-- At a middle block the cell is updated from the block. -/
theorem cellMiddle_eq (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : ¬atLast i) (x0 : Vec F S2048x1024 .f32) (xs : Vec F S1x1 .f32) :
    cellMiddle c i arg1 harg1 arg2 harg2 arg3 harg3 hc0 hc1 x0 xs = k0_pay2 x0 xs := by
  unfold cellMiddle
  rw [View.read_writes_eq_canon _ _ _ (cover_middle c i arg1 harg1 arg2 harg2 arg3 harg3 hc0 hc1 x0 xs)]
  unfold runMiddle
  dsimp only
  rw [View.canon_unit_zero (S := S1x1) hz]
  simp only [View.readAt_eq_ld, harg1.read_unread, harg3.read_unread, View.ld_unit_zero (S := S2048x1024) hz, View.ld_unit_zero (S := S1x1) hz]

/-- At the last block the cell is updated from the block … -/
theorem cellLast_eq (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : atLast i) (x0 : Vec F S2048x1024 .f32) (xs : Vec F S1x1 .f32) :
    cellLast c i arg1 harg1 arg2 harg2 arg3 harg3 hc0 hc1 x0 xs = k0_pay2 x0 xs := by
  unfold cellLast
  rw [View.read_writes_eq_canon _ _ _ (cover_last_cell c i arg1 harg1 arg2 harg2 arg3 harg3 hc0 hc1 x0 xs)]
  unfold runLast
  dsimp only
  sl_unfold_words
  rw [View.canon_unit_zero (S := S1x1) hz]
  simp only [View.readAt_eq_ld, harg1.read_unread, harg3.read_unread, View.ld_unit_zero (S := S2048x1024) hz, View.ld_unit_zero (S := S1x1) hz]

/-- … and the output receives a copy of the updated cell. -/
theorem outLast_eq (c : Dev nD) (i : grid0.Coords) (arg1 : Memref sig .tc .vmem S2048x1024 .f32) (harg1 : arg1.IsWhole)
    (arg2 : Memref sig .tc .vmem S1x1 .f32) (harg2 : arg2.IsWhole) (arg3 : Memref sig .tc .vmem S1x1 .f32) (harg3 : arg3.IsWhole)
    (hc0 : ¬atFirst i) (hc1 : atLast i) (x0 : Vec F S2048x1024 .f32) (xs : Vec F S1x1 .f32) :
    outLast c i arg1 harg1 arg2 harg2 arg3 harg3 hc0 hc1 x0 xs = k0_pay2 x0 xs := by
  unfold outLast
  rw [View.read_writes_eq_canon _ _ _ (cover_last_out c i arg1 harg1 arg2 harg2 arg3 harg3 hc0 hc1 x0 xs)]
  unfold runLast
  dsimp only
  sl_unfold_words
  rw [View.canon_unit_zero (S := S1x1) hz, View.readCov_unit_zero (S := S1x1) _ hz]
  simp only [View.readAt_eq_ld, harg1.read_unread, harg3.read_unread, View.ld_unit_zero (S := S2048x1024) hz, View.ld_unit_zero (S := S1x1) hz]

end Pieces

/-! ## The body's term over the extended reals -/

section Arith

/-- The reductions start from minus infinity, the least extended real. -/
theorem negInf_eq : Ideal.ofBits .f32 0xFF800000#32 = (⊥ : EReal) := by simp [Ideal.ofBits, Ideal.ieee]

/-- The largest absolute value in a block: the maximum over its rows of each row's maximum of |x|. -/
def blockMax (x0 : S2048x1024.Idx → EReal) : EReal :=
  (Finset.univ : Finset (Fin 2048)).fold max ⊥
    (fun r => (Finset.univ : Finset (Fin 1024)).fold max ⊥ (fun k => max (x0 (ix2 r k)) (-(x0 (ix2 r k)))))

theorem lift_row (r : Fin 2048) (k : Fin 1024) : reduces_S2048x1024_S2048.lift (ix1 r) k = ix2 r k := by
  funext a; match a with | ⟨0, _⟩ => rfl | ⟨1, _⟩ => rfl

theorem lift_col (u : Fin 1) (r : Fin 2048) : reduces_S2048x1_S1.lift (ix1 u) r = ix2 r u := by
  funext a; match a with | ⟨0, _⟩ => rfl | ⟨1, _⟩ => rfl

/-- A row's maximum: the reduction along the columns, at row r. -/
theorem rowMax_apply (src : FVec Ideal S2048x1024 .f32) (hφ : FKind.Formats .f32)
    (hacc : (0xFF800000#32 : BitVec 32) = FKind.maximumf.neutral .f32 hφ) (r : Fin 2048) :
    multiReduction .maximumf [1] S2048 src 0xFF800000#32 reduces_S2048x1024_S2048 hφ hacc (ix1 r)
      = (Finset.univ : Finset (Fin 1024)).fold max ⊥ (fun k => src (ix2 r k)) := by
  rw [Ideal.multiReduction_maximumf_single, Ideal.ofBits_def, negInf_eq]
  refine congrArg (fun f => Finset.fold max ⊥ f Finset.univ) (funext fun (k : Fin 1024) => ?_)
  exact congrArg src (lift_row r k)

/-- The maximum down a column of height 2048 and width one. -/
theorem colMax_apply (src : FVec Ideal S2048x1 .f32) (hφ : FKind.Formats .f32)
    (hacc : (0xFF800000#32 : BitVec 32) = FKind.maximumf.neutral .f32 hφ) (u : Fin 1) :
    multiReduction .maximumf [0] S1 src 0xFF800000#32 reduces_S2048x1_S1 hφ hacc (ix1 u)
      = (Finset.univ : Finset (Fin 2048)).fold max ⊥ (fun r => src (ix2 r u)) := by
  rw [Ideal.multiReduction_maximumf_single, Ideal.ofBits_def, negInf_eq]
  refine congrArg (fun f => Finset.fold max ⊥ f Finset.univ) (funext fun (r : Fin 2048) => ?_)
  exact congrArg src (lift_col u r)

/-- A vector of length 2048 seen as a column reads its entry. -/
theorem toCol_apply (v : FVec Ideal S2048 .f32) (r : Fin 2048) (u : Fin 1) :
    shapeCast S2048x1 v shapeCasts_S2048_S2048x1 (ix2 r u) = v (ix1 r) :=
  shapeCast_apply v shapeCasts_S2048_S2048x1 (ix2 r u) (ix1 r) (by
    rw [Shape.rowMajor_val_one, Shape.rowMajor_val_two]
    have h1 : u.val < 1 := u.isLt
    show r.val = r.val * 1 + u.val
    omega)

/-- The reset value is zero. -/
theorem pay1_apply (j : S1x1.Idx) : (k0_pay1 (F := Ideal) j : EReal) = 0 := by
  unfold k0_pay1
  simp only [shapeCast_self]
  exact Ideal.ofBits_zero_f32

/-- The update: the larger of the cell and the block's largest absolute value. -/
theorem pay2_apply (x0 : Vec Ideal S2048x1024 .f32) (a : Vec Ideal S1x1 .f32) (j : S1x1.Idx) :
    (k0_pay2 x0 a j : EReal) = max (a j : EReal) (blockMax x0) := by
  obtain ⟨u, w, rfl⟩ : ∃ (u w : Fin 1), j = ix2 u w := ⟨j 0, j 1, eq_ix2 j⟩
  unfold k0_pay2
  simp only [shapeCast_self]
  rw [maximumf_apply]
  congr 1
  refine (shapeCast_a_1a_apply (a := 1) _ shapeCasts_S1_S1x1 u w).trans ?_
  refine (colMax_apply _ _ _ w).trans ?_
  unfold blockMax
  refine congrArg (fun f => Finset.fold max ⊥ f Finset.univ) (funext fun (r : Fin 2048) => ?_)
  refine (toCol_apply _ r w).trans ?_
  refine (rowMax_apply _ _ _ r).trans ?_
  rfl

end Arith

/-! ## The cell after block n -/

section Value
variable (V : (c : Dev nD) → (b : Ref sig .tc) → Buf (Elt Ideal) ((c : Thread nD τ).loc b)) (c : Dev nD)

/-- After block 0: the larger of zero and the block's largest absolute value. -/
theorem cell_zero (hn : 0 < cfg0.N) (j : S1x1.Idx) :
    (cellAt V c 0 hn j : EReal) = max 0 (blockMax (blockAt V c 0 ⟨0, hn⟩)) := by
  have e := cellAt_first V c ⟨0, hn⟩ rfl (show ¬(0 : ℕ) = 23 by decide)
  refine (congrFun e j).trans ?_
  refine (congrFun (cellFirst_eq c _ _ _ _ _ _ _ _ _ _) j).trans ?_
  refine (pay2_apply _ _ j).trans ?_
  rw [pay1_apply]

/-- After block n + 1: the larger of the cell after block n and the block's largest absolute value. -/
theorem cell_succ (n : ℕ) (hn : n + 1 < cfg0.N) (j : S1x1.Idx) :
    (cellAt V c (n + 1) hn j : EReal)
      = max (cellAt V c n (Nat.lt_of_succ_lt hn) j : EReal) (blockMax (blockAt V c 0 ⟨n + 1, hn⟩)) := by
  by_cases h1 : n + 1 = 23
  · have e := cellAt_last V c ⟨n + 1, hn⟩ (Nat.succ_ne_zero n) h1
    refine (congrFun e j).trans ?_
    refine (congrFun (cellLast_eq c _ _ _ _ _ _ _ _ _ _ _) j).trans ?_
    exact pay2_apply _ _ j
  · have e := cellAt_middle V c ⟨n + 1, hn⟩ (Nat.succ_ne_zero n) h1
    refine (congrFun e j).trans ?_
    refine (congrFun (cellMiddle_eq c _ _ _ _ _ _ _ _ _ _ _) j).trans ?_
    exact pay2_apply _ _ j

/-- THE CELL AS A LEAST UPPER BOUND: after block n it lies below y exactly when zero and the largest absolute
    values of blocks 0 to n do. -/
theorem cell_le_iff (j : S1x1.Idx) (y : EReal) : ∀ (n : ℕ) (hn : n < cfg0.N),
    (cellAt V c n hn j : EReal) ≤ y ↔ 0 ≤ y ∧ ∀ t : Fin cfg0.N, t.val ≤ n → blockMax (blockAt V c 0 t) ≤ y
  | 0, hn => by
    rw [cell_zero V c hn j, max_le_iff]
    constructor
    · rintro ⟨h0, hb⟩
      refine ⟨h0, fun t ht => ?_⟩
      obtain rfl : t = ⟨0, hn⟩ := Fin.ext (by show t.val = 0; omega)
      exact hb
    · rintro ⟨h0, hb⟩
      exact ⟨h0, hb ⟨0, hn⟩ (le_refl _)⟩
  | n + 1, hn => by
    rw [cell_succ V c n hn j, max_le_iff, cell_le_iff j y n (Nat.lt_of_succ_lt hn)]
    constructor
    · rintro ⟨⟨h0, hb⟩, hl⟩
      refine ⟨h0, fun t ht => ?_⟩
      by_cases htn : t.val ≤ n
      · exact hb t htn
      · obtain rfl : t = ⟨n + 1, hn⟩ := Fin.ext (by show t.val = n + 1; omega)
        exact hl
    · rintro ⟨h0, hb⟩
      exact ⟨⟨h0, fun t ht => hb t (Nat.le_succ_of_le ht)⟩, hb ⟨n + 1, hn⟩ (le_refl _)⟩

/-- A block's largest absolute value lies below y exactly when every entry's absolute value does. -/
theorem blockMax_le_iff (x0 : S2048x1024.Idx → EReal) (y : EReal) :
    blockMax x0 ≤ y ↔ ∀ (r : Fin 2048) (k : Fin 1024), max (x0 (ix2 r k)) (-(x0 (ix2 r k))) ≤ y := by
  unfold blockMax
  simp only [Finset.fold_max_le, bot_le, true_and, Finset.mem_univ, forall_true_left]

/-- The activations' largest absolute value lies below y exactly when every entry's absolute value does. -/
theorem absMax_le_iff (X : Cert.QuantSpec.SX.Idx → EReal) (y : EReal) :
    Cert.QuantSpec.absMax X ≤ y ↔ ∀ i, max (X i) (-(X i)) ≤ y := by
  unfold Cert.QuantSpec.absMax
  simp only [Finset.fold_max_le, bot_le, true_and, Finset.mem_univ, forall_true_left]

/-- An absolute value is never negative. -/
theorem abs_nonneg' (a : EReal) : 0 ≤ max a (-a) := by
  rcases le_total 0 a with h | h
  · exact le_max_of_le_left h
  · exact le_max_of_le_right (EReal.neg_nonneg.mpr h)

/-! ## The blocks are the rows of the flattened activations -/

/-- The input window's block index at point t is (t, 0). -/
theorem index_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The flattened activations, as the region finds them. -/
def flatIn : S49152x1024.Idx → EReal := V c main_v0

/-- Entry (r, k) of block t is entry (2048 t + r, k) of the flattened activations. -/
theorem blockAt_apply (t : Fin cfg0.N) (r : Fin 2048) (k : Fin 1024) (p : Fin 49152) (hp : p.val = 2048 * t.val + r.val) :
    (blockAt V c 0 t (ix2 r k) : EReal) = flatIn V c (ix2 p k) := by
  have hi := index_in t
  unfold blockAt flatIn
  rw [View.read_apply]
  show (V c main_v0 : S49152x1024.Idx → EReal) _ = (V c main_v0 : S49152x1024.Idx → EReal) _
  congr 1
  funext a
  apply Fin.ext
  match a with
  | ⟨0, _⟩ => show win0_0.index t 0 * 2048 + 1 * r.val = p.val; rw [hi.1, hp]; omega
  | ⟨1, _⟩ => show win0_0.index t 1 * 1024 + 1 * k.val = k.val; rw [hi.2]; omega

/-- The flattening is row-major: row ((l 8 + b) 1024 + q) of the flattened array is row (l, b, q) of the activations. -/
theorem flat_apply (X : S6x8x1024x1024.Idx → EReal) (l : Fin 6) (b : Fin 8) (q : Fin 1024) (k : Fin 1024) (p : Fin 49152)
    (hp : p.val = (l.val * 8 + b.val) * 1024 + q.val) :
    shapeCast S49152x1024 X shapeCasts_S6x8x1024x1024_S49152x1024 (ix2 p k) = X (ix4 l b q k) :=
  shapeCast_apply X shapeCasts_S6x8x1024x1024_S49152x1024 (ix2 p k) (ix4 l b q k) (by
    rw [Shape.rowMajor_val_four, Shape.rowMajor_val_two]
    show ((l.val * 8 + b.val) * 1024 + q.val) * 1024 + k.val = p.val * 1024 + k.val
    rw [hp])

/-- THE CELL AFTER THE LAST BLOCK is the activations' largest absolute value. -/
theorem cell_last_eq (X : S6x8x1024x1024.Idx → EReal)
    (hV : flatIn V c = shapeCast S49152x1024 X shapeCasts_S6x8x1024x1024_S49152x1024)
    (hn : 23 < cfg0.N) (j : S1x1.Idx) : (cellAt V c 23 hn j : EReal) = Cert.QuantSpec.absMax X := by
  have hN : cfg0.N = 24 := N_0
  refine eq_of_forall_ge_iff fun y => ?_
  rw [cell_le_iff V c j y 23 hn, absMax_le_iff]
  constructor
  · rintro ⟨h0, hb⟩ i
    obtain ⟨l, b, q, k, rfl⟩ : ∃ (l : Fin 6) (b : Fin 8) (q : Fin 1024) (k : Fin 1024), i = ix4 l b q k :=
      ⟨i 0, i 1, i 2, i 3, eq_ix4 i⟩
    have hl := l.isLt; have hb' := b.isLt; have hq := q.isLt
    have hp : (l.val * 8 + b.val) * 1024 + q.val < 49152 := by omega
    have ht : ((l.val * 8 + b.val) * 1024 + q.val) / 2048 < cfg0.N := by rw [hN]; omega
    have hr : ((l.val * 8 + b.val) * 1024 + q.val) % 2048 < 2048 := Nat.mod_lt _ (by decide)
    have h := (blockMax_le_iff _ y).mp (hb ⟨_, ht⟩ (by show _ / 2048 ≤ 23; omega)) ⟨_, hr⟩ k
    rw [blockAt_apply V c ⟨_, ht⟩ ⟨_, hr⟩ k ⟨_, hp⟩ (Nat.div_add_mod _ 2048).symm, hV,
      flat_apply X l b q k ⟨_, hp⟩ rfl] at h
    exact h
  · intro hX
    have hall : ∀ (p : Fin 49152) (k : Fin 1024), max (flatIn V c (ix2 p k)) (-(flatIn V c (ix2 p k))) ≤ y := by
      intro p k
      rw [hV]
      exact hX _
    refine ⟨le_trans (abs_nonneg' _) (hall 0 0), fun t _ => (blockMax_le_iff _ y).mpr fun r k => ?_⟩
    have ht := t.isLt
    have hr := r.isLt
    rw [blockAt_apply V c t r k ⟨2048 * t.val + r.val, by omega⟩ rfl]
    exact hall _ _

end Value

/-! ## The output array after the region -/

section Output
variable (V : (c : Dev nD) → (b : Ref sig .tc) → Buf (Elt Ideal) ((c : Thread nD τ).loc b)) (c : Dev nD)

/-- The copy written to the output at the last block is the activations' largest absolute value. -/
theorem out_last_apply (X : S6x8x1024x1024.Idx → EReal)
    (hV : flatIn V c = shapeCast S49152x1024 X shapeCasts_S6x8x1024x1024_S49152x1024)
    (t : Fin cfg0.N) (h1 : t.val = 23) (j : S1x1.Idx) : (outAt V c t j : EReal) = Cert.QuantSpec.absMax X := by
  obtain ⟨n, hn⟩ := t
  obtain rfl : n = 23 := h1
  have h0 : ¬(23 : ℕ) = 0 := by decide
  refine (congrFun (outAt_last V c ⟨23, hn⟩ h0 rfl) j).trans ?_
  refine (congrFun (outLast_eq c _ _ _ _ _ _ _ _ _ _ _) j).trans ?_
  refine Eq.trans ?_ (cell_last_eq V c X hV hn j)
  exact ((congrFun (cellAt_last V c ⟨23, hn⟩ h0 rfl) j).trans (congrFun (cellLast_eq c _ _ _ _ _ _ _ _ _ _ _) j)).symm

end Output

/-- The last point of the grid, where the output is written back. -/
def tLast : Fin cfg0.N := ⟨23, (by decide : (23 : ℕ) < 24).trans_eq N_0.symm⟩

/-- THE RESULT OF THE FIRST REGION: its one-by-one output array ends holding the largest absolute value of the
    activations, whenever the flattened array the region reads is the row-major flattening of the activations. -/
theorem maxOut_eq
    (V : (c : Dev nD) → (b : Ref sig .tc) → Buf (Elt Ideal) ((c : Thread nD τ).loc b)) (c : Dev nD)
    (X : (⟨S6x8x1024x1024, .f32⟩ : BufTy).Contents (Elt Ideal))
    (hV : (V c main_v0 : S49152x1024.Idx → EReal) = shapeCast S49152x1024 X shapeCasts_S6x8x1024x1024_S49152x1024)
    (j : S1x1.Idx) :
    ((dat0 (F := Ideal) V c).arrAt 1 cfg0.N : S1x1.Idx → EReal) j = Cert.QuantSpec.absMax X := by
  have hN : cfg0.N = 24 := N_0
  refine congrFun ((dat0 (F := Ideal) V c).arrAt_eq_of_cover 1 (fun _ => Cert.QuantSpec.absMax X) (fun t hf => ?_) (fun i => ?_)) j
  · have h23 : t.val = 23 := by have := (flush0_1 t).mp hf; have := t.isLt; omega
    funext y
    rw [View.read_apply]
    exact out_last_apply V c X hV t h23 _
  · refine ⟨tLast, (flush0_1 tLast).mpr rfl, ?_⟩
    show i ∈ ((View.whole main_v1).slice (win0_1.rect tLast)).set
    rw [View.set_slice_whole, Rect.mem_set_unit]
    intro a
    have h0 : (i 0 : Nat) < 1 := (i 0).isLt
    have h1 : (i 1 : Nat) < 1 := (i 1).isLt
    match a with
    | ⟨0, _⟩ =>
      show win0_1.index tLast 0 * win0_1.size 0 ≤ (i 0 : Nat)
        ∧ (i 0 : Nat) < win0_1.index tLast 0 * win0_1.size 0 + win0_1.xsize (grid0.coords tLast) 0
      rw [show win0_1.index tLast 0 * win0_1.size 0 = 0 from by decide +kernel,
        show win0_1.xsize (grid0.coords tLast) 0 = 1 from by decide +kernel]
      omega
    | ⟨1, _⟩ =>
      show win0_1.index tLast 1 * win0_1.size 1 ≤ (i 1 : Nat)
        ∧ (i 1 : Nat) < win0_1.index tLast 1 * win0_1.size 1 + win0_1.xsize (grid0.coords tLast) 1
      rw [show win0_1.index tLast 1 * win0_1.size 1 = 0 from by decide +kernel,
        show win0_1.xsize (grid0.coords tLast) 1 = 1 from by decide +kernel]
      omega

end Cert.KernelIdeal.AbsMax

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.QLinearPayloadIdeal.lean ====
/-
  The arithmetic of the second region's body, read at one entry of the stored block. With the block's 512 x 1024
  activations x, the scale s in the one-by-one operand, the 1024 x 1024 right operand w, and the one-row operands
  bi and sc, the stored value at (r, q) is
      ( sum over k of  clamp(round(x(r,k) / s)) * w(k,q)  +  bi(0,q) ) * sc(0,q):
  the change to the shorter float format is the identity on the extended reals, and the matrix unit's product into
  the zero accumulator is the plain sum over the contracted position.
-/
import proofs.«149211_j12876311953739_1_alg».proof.Proof.Gen.KernelIdeal.Skeleton
import proofs.«149211_j12876311953739_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QLinear

open Cert.KernelIdeal Cert.KernelIdeal.Gen
open Idealize.ShloMosaic Idealize.ShloMosaic.ValueIdx Idealize.ShloMosaic.PlainDot

/-- Divide by the scale, round half to even, clamp between the body's two float constants (-128 and 127). -/
def bodyQuant (v s : EReal) : EReal :=
  min (Ideal.ofBits .f32 0x42FE0000#32) (max (Ideal.ofBits .f32 0xC3000000#32) (Ideal.liftRound Ideal.roundHalfEven (Ideal.div v s)))

/-- Where the product's contraction reads its operands: the output's row on the left, its column on the right. -/
theorem dot_lhs0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dot_rhs1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- THE STORED ENTRY. -/
theorem pay_apply (v0 : Vec Ideal S1x1 .f32) (v2 : Vec Ideal S512x1024 .f32) (v12 : Vec Ideal S1024x1024 .bf16)
    (v15 v19 : Vec Ideal S1x1024 .f32) (r : Fin 512) (q : Fin 1024) :
    k1_pay1 (F := Ideal) v0 v2 v12 v15 v19 (ix2 r q)
      = ((∑ k : Fin 1024, bodyQuant (v2 (ix2 r k)) (v0 (ix2 0 0)) * v12 (ix2 k q)) + v15 (ix2 (0 : Fin 1) q)) * v19 (ix2 (0 : Fin 1) q) := by
  unfold k1_pay1
  simp only [mulf_apply, addf_apply]
  rw [broadcastTo_1b_ab_apply, broadcastTo_1b_ab_apply, shapeCast_self, shapeCast_self, shapeCast_self, shapeCast_self]
  rw [show ∀ (l : FVec Ideal S512x1024 .bf16) (w : FVec Ideal S1024x1024 .bf16),
      matmul dot_S512x1024_S1024x1024_S512x1024_1_0_0_1_n_n none l w (constant S512x1024 .f32 0x00000000#32) (ix2 r q) = ∑ k : Fin 1024, l (ix2 r k) * w (ix2 k q)
    from fun l w => matmul_zero_ix2 dot_S512x1024_S1024x1024_S512x1024_1_0_0_1_n_n rfl rfl rfl rfl dot_lhs0 dot_rhs1 none l w r q]
  have hx : extractAt ![0, 0] v0 inpos_S1x1_p0_0 = v0 (ix2 0 0) := by
    unfold extractAt; exact congrArg v0 (funext fun a => by match a with | ⟨0, _⟩ => rfl | ⟨1, _⟩ => rfl)
  rw [hx]
  rfl

end Cert.KernelIdeal.QLinear

end
-- ==== Proof.QLinearArrayIdeal.lean ====
/-
  The second region's output as ONE array. Row p = 512 t + r of the flattened activations lies in block t; the weight,
  the bias row, the scale row and the activations' scale are read whole at every block. So what block t writes back is
  block t of the array whose entry (p, q) is
      ( sum over k of  clamp(round(x(p,k) / s)) * w(k,q)  +  bi(0,q) ) * sc(0,q),
  and since the 96 blocks cover all 49152 rows the output array after the region is that array.
-/
import proofs.«149211_j12876311953739_1_alg».proof.Proof.QLinearRegionIdeal
import proofs.«149211_j12876311953739_1_alg».proof.Proof.QLinearPayloadIdeal

set_option maxRecDepth 16384

noncomputable section

namespace Cert.KernelIdeal.QLinear

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the result, from the five arrays the region reads. -/
def gEntry (A0 : FVec Ideal S49152x1024 .f32) (A1 : FVec Ideal S1024x1024 .bf16) (A2 A3 : FVec Ideal S1x1024 .f32) (A4 : FVec Ideal S1x1 .f32)
    (p : Fin 49152) (q : Fin 1024) : EReal :=
  ((∑ k : Fin 1024, bodyQuant (A0 (ix2 p k)) (A4 (ix2 0 0)) * A1 (ix2 k q)) + A2 (ix2 (0 : Fin 1) q)) * A3 (ix2 (0 : Fin 1) q)

/-- The result array. -/
def gArr (A0 : FVec Ideal S49152x1024 .f32) (A1 : FVec Ideal S1024x1024 .bf16) (A2 A3 : FVec Ideal S1x1024 .f32) (A4 : FVec Ideal S1x1 .f32) :
    S49152x1024.Idx → EReal :=
  fun j => gEntry A0 A1 A2 A3 A4 ⟨(j 0).val, (j 0).isLt⟩ ⟨(j 1).val, (j 1).isLt⟩

/-- The index maps over the grid: the activations' and the output's block number is the point's; the others stay at zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt96 (t : Fin cfg1.N) : t.val < 96 := lt_of_lt_of_eq t.isLt (show cfg1.N = 96 from N_1)

/-! ## The blocks read off the entry contents -/

theorem blk0 (c : Dev nD) (t : Fin cfg1.N) (r : Fin 512) (k : Fin 1024) :
    blockAt V c 0 t (ix2 r k)
      = (V c main_v0 : FVec Ideal S49152x1024 .f32) (ix2 ⟨t.val * 512 + r.val, by have := lt96 t; have := r.isLt; omega⟩ k) := by
  obtain ⟨e0, e1, -⟩ := idx_facts t
  show V c main_v0 (((cfg1.win 0).blk t).view.emb (ix2 r k)) = _
  refine congrArg _ (funext fun a => Fin.ext ?_)
  match a with
  | ⟨0, _⟩ => show win1_0.index t (0 : Fin 2) * 512 + 1 * r.val = t.val * 512 + r.val; omega
  | ⟨1, _⟩ => show win1_0.index t (1 : Fin 2) * 1024 + 1 * k.val = k.val; omega

theorem blk1 (c : Dev nD) (t : Fin cfg1.N) (y : S1024x1024.Idx) :
    blockAt V c 1 t y = (V c main_v18 : FVec Ideal S1024x1024 .bf16) y := by
  obtain ⟨-, -, e0, e1, -⟩ := idx_facts t
  show V c main_v18 (((cfg1.win 1).blk t).view.emb y) = _
  refine congrArg _ (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

theorem blk2 (c : Dev nD) (t : Fin cfg1.N) (y : S1x1024.Idx) :
    blockAt V c 2 t y = (V c main_v25 : FVec Ideal S1x1024 .f32) y := by
  obtain ⟨-, -, -, -, e0, e1, -⟩ := idx_facts t
  show V c main_v25 (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

theorem blk3 (c : Dev nD) (t : Fin cfg1.N) (y : S1x1024.Idx) :
    blockAt V c 3 t y = (V c main_v26 : FVec Ideal S1x1024 .f32) y := by
  obtain ⟨-, -, -, -, -, -, e0, e1, -⟩ := idx_facts t
  show V c main_v26 (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 1024 + 1 * (y 1).val = (y 1).val; omega

theorem blk4 (c : Dev nD) (t : Fin cfg1.N) (y : S1x1.Idx) :
    blockAt V c 4 t y = (V c main_v5 : FVec Ideal S1x1 .f32) y := by
  obtain ⟨-, -, -, -, -, -, -, -, e0, e1, -⟩ := idx_facts t
  show V c main_v5 (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 1 + 1 * (y 1).val = (y 1).val; omega

/-! ## What point t writes back -/

theorem flushed_eq (c : Dev nD) (t : Fin cfg1.N) :
    (dat1 V c).flushed 5 t = ((cfg1.win 5).blk t).view.read (Elt Ideal) (gArr (V c main_v0) (V c main_v18) (V c main_v25) (V c main_v26) (V c main_v5)) := by
  show (cfg1.win 5).cut (grid1.coords t) ((dat1 V c).after 5 t) = _
  rw [after5]
  unfold outBlock
  rw [View.canon_unit_zero hz]
  simp only [View.ld_unit_zero (S := S512x1024) hz, View.ld_unit_zero (S := S1024x1024) hz, View.ld_unit_zero (S := S1x1024) hz,
    View.ld_unit_zero (S := S1x1) hz]
  obtain ⟨-, -, -, -, -, -, -, -, -, -, e0, e1⟩ := idx_facts t
  funext y
  obtain ⟨r, q, rfl⟩ : ∃ (r : Fin 512) (q : Fin 1024), y = ix2 r q := ⟨y 0, y 1, eq_ix2 y⟩
  show k1_pay1 (blockAt V c 4 t) (blockAt V c 0 t) (blockAt V c 1 t) (blockAt V c 2 t) (blockAt V c 3 t) (ix2 r q) = _
  rw [pay_apply]
  simp only [blk0, blk1, blk2, blk3, blk4]
  show _ = gEntry (V c main_v0) (V c main_v18) (V c main_v25) (V c main_v26) (V c main_v5) ⟨(((cfg1.win 5).blk t).view.emb (ix2 r q) 0).val, _⟩ ⟨(((cfg1.win 5).blk t).view.emb (ix2 r q) 1).val, _⟩
  have hp : (⟨(((cfg1.win 5).blk t).view.emb (ix2 r q) 0).val, (((cfg1.win 5).blk t).view.emb (ix2 r q) 0).isLt⟩ : Fin 49152)
      = ⟨t.val * 512 + r.val, by have := lt96 t; have := r.isLt; omega⟩ :=
    Fin.ext (by show win1_5.index t (0 : Fin 2) * 512 + 1 * r.val = t.val * 512 + r.val; omega)
  have hq : (⟨(((cfg1.win 5).blk t).view.emb (ix2 r q) 1).val, (((cfg1.win 5).blk t).view.emb (ix2 r q) 1).isLt⟩ : Fin 1024) = q :=
    Fin.ext (by show win1_5.index t (1 : Fin 2) * 1024 + 1 * q.val = q.val; omega)
  rw [hp, hq]
  rfl

/-! ## The cover, and the array after the region -/

theorem mem_blk (t : Fin cfg1.N) (i : S49152x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v27).slice (win1_5.rect t)).set ↔ _
  rw [View.set_slice_whole, Rect.mem_set_unit]
  exact Iff.rfl

theorem cover (i : S49152x1024.Idx) : ∃ t : Fin cfg1.N, (cfg1.win 5).flush t = true ∧ i ∈ ((cfg1.win 5).blk t).view.set := by
  have hi0 : (i 0).val < 49152 := (i 0).isLt
  have hi1 : (i 1).val < 1024 := (i 1).isLt
  have hN : cfg1.N = 96 := N_1
  let t : Fin cfg1.N := ⟨(i 0).val / 512, by rw [hN]; omega⟩
  obtain ⟨-, -, -, -, -, -, -, -, -, -, e0, e1⟩ := idx_facts t
  have ht : t.val = (i 0).val / 512 := rfl
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 1024 ≤ (i 1).val ∧ (i 1).val < win1_5.index t (1 : Fin 2) * 1024 + 1024; omega

/-- THE OUTPUT ARRAY after the region. -/
theorem final (c : Dev nD) : (dat1 V c).arrAt 5 cfg1.N = gArr (V c main_v0) (V c main_v18) (V c main_v25) (V c main_v26) (V c main_v5) :=
  (dat1 V c).arrAt_eq_of_cover 5 _ (fun t _ => flushed_eq V c t) cover

end Cert.KernelIdeal.QLinear

end
-- ==== Proof.HostChainIdeal.lean ====
/-
  The host operations between the two kernel regions, as values. From the activations' maximum M (a one-by-one array)
  and the weight W and bias B the program computes, in this order: the activations' scale  max(M, eps) / 127;  the rows'
  scales  u = max(rowmax |W|, eps) / 127  (a column);  the quantised weight  clamp(round(W / u))  and its transpose;
  the per-channel scale  u s  and the rounded bias  round(B / (u s)),  both laid as one-row arrays. Each is named here
  as a term of the arguments, and the buffers the second region reads are shown to hold these terms.
-/
import proofs.«149211_j12876311953739_1_alg».proof.Proof.WholeRunIdeal
import Idealize.ShloMosaic.Lib.StableHlo.Run
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-! ## The terms -/

/-- The activations' scale from their maximum. -/
def actScaleT (M : FVec Ideal S1x1 .f32) : FVec Ideal S1x1 .f32 :=
  Host.divf (maximumf M (broadcastInDim S1x1 ![] bcast_S_S1x1 (constant (F := Ideal) S_ .f32 0x322BCC77#32)))
    (broadcastInDim S1x1 ![] bcast_S_S1x1 (constant (F := Ideal) S_ .f32 0x42FE0000#32))

/-- The rows' maxima of |W|. -/
def rowMaxT (W : FVec Ideal S1024x1024 .f32) : FVec Ideal S1024 .f32 :=
  Host.reduce (FloatOps.maximumf (F := Ideal) (φ := .f32)) (Host.absf W) (constant (F := Ideal) S_ .f32 0xFF800000#32) reducesTo_S1024x1024_S1024_d1 h_S_

/-- The rows' scales, as a column. -/
def rowScaleT (W : FVec Ideal S1024x1024 .f32) : FVec Ideal S1024x1 .f32 :=
  Host.divf (maximumf (broadcastInDim S1024x1 ![0] bcast_S1024_S1024x1_0 (rowMaxT W))
      (broadcastInDim S1024x1 ![] bcast_S_S1024x1 (constant (F := Ideal) S_ .f32 0x322BCC77#32)))
    (broadcastInDim S1024x1 ![] bcast_S_S1024x1 (constant (F := Ideal) S_ .f32 0x42FE0000#32))

/-- The weight divided by its rows' scales. -/
def wScaledT (W : FVec Ideal S1024x1024 .f32) : FVec Ideal S1024x1024 .f32 :=
  Host.divf W (broadcastInDim S1024x1024 ![0, 1] bcast_S1024x1_S1024x1024_0_1 (rowScaleT W))

/-- The quantised weight: rounded, clamped between the integers -128 and 127. -/
def wQuantT (W : FVec Ideal S1024x1024 .f32) : FVec Ideal S1024x1024 .f32 :=
  minimumf (broadcastInDim S1024x1024 ![] bcast_S_S1024x1024 (sitofp (F := Ideal) .f32 (constantI S_ 32 127#32)))
    (maximumf (broadcastInDim S1024x1024 ![] bcast_S_S1024x1024 (sitofp (F := Ideal) .f32 (constantI S_ 32 4294967168#32)))
      (Host.roundeven (wScaledT W)))

/-- Its transpose, as the matrix unit's right operand. -/
def wTransT (W : FVec Ideal S1024x1024 .f32) : FVec Ideal S1024x1024 .bf16 :=
  transpose S1024x1024 [1, 0] (truncf .bf16 (wQuantT W) bitsLt_bf16_f32) transposes_S1024x1024_S1024x1024_1_0

/-- The per-channel scale: the row's scale times the activations' scale. -/
def chanScaleT (W : FVec Ideal S1024x1024 .f32) (M : FVec Ideal S1x1 .f32) :
    FVec Ideal S1024 .f32 :=
  mulf (shapeCast S1024 (rowScaleT W) shapeCasts_S1024x1_S1024)
    (broadcastInDim S1024 ![] bcast_S_S1024 (shapeCast S_ (actScaleT M) shapeCasts_S1x1_S_))

/-- The rounded bias. -/
def biasQuantT (W : FVec Ideal S1024x1024 .f32) (B : FVec Ideal S1024 .f32)
    (M : FVec Ideal S1x1 .f32) : FVec Ideal S1024 .f32 :=
  Host.roundeven (Host.divf B (chanScaleT W M))

/-! ## Each stretch, from any contents -/

variable (U : Valuation τ sig (Elt Ideal))

set_option maxHeartbeats 2000000 in
theorem st0_v0 : after hostOps0 U (Proc.devRef .tc main_v0)
    = shapeCast S49152x1024 (U (Proc.devRef .tc main_arg0) : FVec Ideal S6x8x1024x1024 .f32) shapeCasts_S6x8x1024x1024_S49152x1024 := by
  simp only [hostOps0]; after_results; try rfl

set_option maxHeartbeats 2000000 in
theorem st1_v5 : after hostOps1 U (Proc.devRef .tc main_v5) = actScaleT (U (Proc.devRef .tc main_v1) : FVec Ideal S1x1 .f32) := by
  simp only [hostOps1]; after_results; try rfl

set_option maxHeartbeats 2000000 in
theorem st1_v12 : after hostOps1 U (Proc.devRef .tc main_v12) = rowScaleT (U (Proc.devRef .tc main_arg1) : FVec Ideal S1024x1024 .f32) := by
  simp only [hostOps1]; after_results; try rfl

set_option maxHeartbeats 2000000 in
theorem st1_v14 : after hostOps1 U (Proc.devRef .tc main_v14) = wScaledT (U (Proc.devRef .tc main_arg1) : FVec Ideal S1024x1024 .f32) := by
  simp only [hostOps1]; after_results; try rfl

theorem st11_v15 : after hostOps1_1 U (Proc.devRef .tc main_v15) = (Host.roundeven (U (Proc.devRef .tc main_v14) : FVec Ideal S1024x1024 .f32) : FVec Ideal S1024x1024 .f32) := by
  simp only [hostOps1_1]; after_results; try rfl

theorem st12_c : after hostOps1_2 U (Proc.devRef .tc main_c) = constantI S_ 32 4294967168#32 := by
  simp only [hostOps1_2]; after_results; try rfl
theorem st12_c4 : after hostOps1_2 U (Proc.devRef .tc main_c_4) = constantI S_ 32 127#32 := by
  simp only [hostOps1_2]; after_results; try rfl

set_option maxHeartbeats 2000000 in
theorem st13_v16 : after hostOps1_3 U (Proc.devRef .tc main_v16)
    = minimumf (broadcastInDim S1024x1024 ![] bcast_S_S1024x1024 (sitofp (F := Ideal) .f32 (U (Proc.devRef .tc main_c_4) : IVec S_ 32)))
        (maximumf (broadcastInDim S1024x1024 ![] bcast_S_S1024x1024 (sitofp (F := Ideal) .f32 (U (Proc.devRef .tc main_c) : IVec S_ 32)))
          (U (Proc.devRef .tc main_v15) : FVec Ideal S1024x1024 .f32)) := by
  simp only [hostOps1_3]; after_results; try rfl

set_option maxHeartbeats 2000000 in
theorem st14_v18 : after hostOps1_4 U (Proc.devRef .tc main_v18)
    = (transpose S1024x1024 [1, 0] (truncf .bf16 (U (Proc.devRef .tc main_v16) : FVec Ideal S1024x1024 .f32) bitsLt_bf16_f32) transposes_S1024x1024_S1024x1024_1_0 : FVec Ideal S1024x1024 .bf16) := by
  simp only [hostOps1_4]; after_results; try rfl

set_option maxHeartbeats 2000000 in
theorem st14_v22 : after hostOps1_4 U (Proc.devRef .tc main_v22)
    = (mulf (shapeCast S1024 (U (Proc.devRef .tc main_v12) : FVec Ideal S1024x1 .f32) shapeCasts_S1024x1_S1024)
        (broadcastInDim S1024 ![] bcast_S_S1024 (shapeCast S_ (U (Proc.devRef .tc main_v5) : FVec Ideal S1x1 .f32) shapeCasts_S1x1_S_)) : FVec Ideal S1024 .f32) := by
  simp only [hostOps1_4]; after_results; try rfl

set_option maxHeartbeats 2000000 in
theorem st14_v23 : after hostOps1_4 U (Proc.devRef .tc main_v23)
    = (Host.divf (U (Proc.devRef .tc main_arg2) : FVec Ideal S1024 .f32) (mulf (shapeCast S1024 (U (Proc.devRef .tc main_v12) : FVec Ideal S1024x1 .f32) shapeCasts_S1024x1_S1024)
        (broadcastInDim S1024 ![] bcast_S_S1024 (shapeCast S_ (U (Proc.devRef .tc main_v5) : FVec Ideal S1x1 .f32) shapeCasts_S1x1_S_))) : FVec Ideal S1024 .f32) := by
  simp only [hostOps1_4]; after_results; try rfl

theorem st15_v24 : after hostOps1_5 U (Proc.devRef .tc main_v24) = (Host.roundeven (U (Proc.devRef .tc main_v23) : FVec Ideal S1024 .f32) : FVec Ideal S1024 .f32) := by
  simp only [hostOps1_5]; after_results; try rfl

theorem st16_v25 : after hostOps1_6 U (Proc.devRef .tc main_v25)
    = shapeCast S1x1024 (U (Proc.devRef .tc main_v24) : FVec Ideal S1024 .f32) shapeCasts_S1024_S1x1024 := by
  simp only [hostOps1_6]; after_results; try rfl
theorem st16_v26 : after hostOps1_6 U (Proc.devRef .tc main_v26)
    = shapeCast S1x1024 (U (Proc.devRef .tc main_v22) : FVec Ideal S1024 .f32) shapeCasts_S1024_S1x1024 := by
  simp only [hostOps1_6]; after_results; try rfl

theorem st2_v28 : after hostOps2 U (Proc.devRef .tc main_v28)
    = shapeCast S6x8x1024x1024 (U (Proc.devRef .tc main_v27) : FVec Ideal S49152x1024 .f32) shapeCasts_S49152x1024_S6x8x1024x1024 := by
  simp only [hostOps2]; after_results; try rfl

end Cert.KernelIdeal.Whole

end
-- ==== Proof.RegionInputsIdeal.lean ====
/-
  What the second region reads, as terms of the arguments. With X, W, B the argument arrays on a core and M the
  first region's one-by-one result: the flattened activations are the reshape of X; the right operand is the
  transposed quantised weight; the bias row and the scale row are the rounded bias and the per-channel scale laid as
  one-row arrays; the one-by-one operand is the activations' scale. And the program's result is the reshape of the
  second region's output back to four axes.
-/
import proofs.«149211_j12876311953739_1_alg».proof.Proof.HostChainIdeal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The three argument arrays on core c. -/
abbrev argX : FVec Ideal S6x8x1024x1024 .f32 := m ((c.tc : Thread nD τ).loc main_arg0)
abbrev argW : FVec Ideal S1024x1024 .f32 := m ((c.tc : Thread nD τ).loc main_arg1)
abbrev argB : FVec Ideal S1024 .f32 := m ((c.tc : Thread nD τ).loc main_arg2)
/-- The first region's result on core c. -/
abbrev maxM : FVec Ideal S1x1 .f32 := maxOut m c

/-! ## Arguments and the first region's result, where the host operations read them -/

theorem arg0_V0 : V0 m c (Proc.devRef .tc main_arg0) = argX m c := rfl
theorem arg1_V2 : V2 m (outs1 m) c (Proc.devRef .tc main_arg1) = argW m c := (V2_of m (outs1 m) c main_arg1 (by decide)).trans <| (V1_of m c main_arg1 (by decide)).trans <| rfl
theorem arg2_V6 : V6 m (outs1 m) c (Proc.devRef .tc main_arg2) = argB m c := (V6_of m (outs1 m) c main_arg2 (by decide)).trans <| (V5_of m (outs1 m) c main_arg2 (by decide)).trans <| (V4_of m (outs1 m) c main_arg2 (by decide)).trans <| (V3_of m (outs1 m) c main_arg2 (by decide)).trans <| (V2_of m (outs1 m) c main_arg2 (by decide)).trans <| (V1_of m c main_arg2 (by decide)).trans <| rfl
theorem v1_V2 : V2 m (outs1 m) c (Proc.devRef .tc main_v1) = maxM m c := by
  unfold V2; rw [Function.update_self]; exact congrFun (Function.update_self ..) c

/-! ## The values the second region is entered with -/

theorem v0_V1 : (V1 m c (Proc.devRef .tc main_v0) : FVec Ideal S49152x1024 .f32)
    = shapeCast S49152x1024 (argX m c) shapeCasts_S6x8x1024x1024_S49152x1024 := by
  show after hostOps0 (V0 m c) (Proc.devRef .tc main_v0) = _
  rw [st0_v0]
theorem vin1_v0 : (Vin1 m c main_v0 : FVec Ideal S49152x1024 .f32)
    = shapeCast S49152x1024 (argX m c) shapeCasts_S6x8x1024x1024_S49152x1024 :=
  (V9_of m (outs1 m) c main_v0 (by decide)).trans <| (V8_of m (outs1 m) c main_v0 (by decide)).trans <| (V7_of m (outs1 m) c main_v0 (by decide)).trans <| (V6_of m (outs1 m) c main_v0 (by decide)).trans <| (V5_of m (outs1 m) c main_v0 (by decide)).trans <| (V4_of m (outs1 m) c main_v0 (by decide)).trans <| (V3_of m (outs1 m) c main_v0 (by decide)).trans <| (V2_of m (outs1 m) c main_v0 (by decide)).trans <| v0_V1 m c

theorem v5_V3 : (V3 m (outs1 m) c (Proc.devRef .tc main_v5) : FVec Ideal S1x1 .f32) = actScaleT (maxM m c) := by
  show after hostOps1 (V2 m (outs1 m) c) (Proc.devRef .tc main_v5) = _
  rw [st1_v5, v1_V2]
theorem vin1_v5 : (Vin1 m c main_v5 : FVec Ideal S1x1 .f32) = actScaleT (maxM m c) :=
  (V9_of m (outs1 m) c main_v5 (by decide)).trans <| (V8_of m (outs1 m) c main_v5 (by decide)).trans <| (V7_of m (outs1 m) c main_v5 (by decide)).trans <| (V6_of m (outs1 m) c main_v5 (by decide)).trans <| (V5_of m (outs1 m) c main_v5 (by decide)).trans <| (V4_of m (outs1 m) c main_v5 (by decide)).trans <| v5_V3 m c
theorem v5_V6 : (V6 m (outs1 m) c (Proc.devRef .tc main_v5) : FVec Ideal S1x1 .f32) = actScaleT (maxM m c) :=
  (V6_of m (outs1 m) c main_v5 (by decide)).trans <| (V5_of m (outs1 m) c main_v5 (by decide)).trans <| (V4_of m (outs1 m) c main_v5 (by decide)).trans <| v5_V3 m c

theorem v12_V3 : (V3 m (outs1 m) c (Proc.devRef .tc main_v12) : FVec Ideal S1024x1 .f32) = rowScaleT (argW m c) := by
  show after hostOps1 (V2 m (outs1 m) c) (Proc.devRef .tc main_v12) = _
  rw [st1_v12, arg1_V2]
theorem v12_V6 : (V6 m (outs1 m) c (Proc.devRef .tc main_v12) : FVec Ideal S1024x1 .f32) = rowScaleT (argW m c) :=
  (V6_of m (outs1 m) c main_v12 (by decide)).trans <| (V5_of m (outs1 m) c main_v12 (by decide)).trans <| (V4_of m (outs1 m) c main_v12 (by decide)).trans <| v12_V3 m c

theorem v14_V3 : (V3 m (outs1 m) c (Proc.devRef .tc main_v14) : FVec Ideal S1024x1024 .f32) = wScaledT (argW m c) := by
  show after hostOps1 (V2 m (outs1 m) c) (Proc.devRef .tc main_v14) = _
  rw [st1_v14, arg1_V2]
theorem v15_V4 : (V4 m (outs1 m) c (Proc.devRef .tc main_v15) : FVec Ideal S1024x1024 .f32) = Host.roundeven (wScaledT (argW m c)) := by
  show after hostOps1_1 (V3 m (outs1 m) c) (Proc.devRef .tc main_v15) = _
  rw [st11_v15, v14_V3]
theorem v15_V5 : (V5 m (outs1 m) c (Proc.devRef .tc main_v15) : FVec Ideal S1024x1024 .f32) = Host.roundeven (wScaledT (argW m c)) :=
  (V5_of m (outs1 m) c main_v15 (by decide)).trans <| v15_V4 m c
theorem c_V5 : (V5 m (outs1 m) c (Proc.devRef .tc main_c) : IVec S_ 32) = constantI S_ 32 4294967168#32 := by
  show after hostOps1_2 (V4 m (outs1 m) c) (Proc.devRef .tc main_c) = _
  rw [st12_c]
theorem c4_V5 : (V5 m (outs1 m) c (Proc.devRef .tc main_c_4) : IVec S_ 32) = constantI S_ 32 127#32 := by
  show after hostOps1_2 (V4 m (outs1 m) c) (Proc.devRef .tc main_c_4) = _
  rw [st12_c4]
theorem v16_V6 : (V6 m (outs1 m) c (Proc.devRef .tc main_v16) : FVec Ideal S1024x1024 .f32) = wQuantT (argW m c) := by
  show after hostOps1_3 (V5 m (outs1 m) c) (Proc.devRef .tc main_v16) = _
  rw [st13_v16, c_V5, c4_V5, v15_V5]; rfl
theorem v18_V7 : (V7 m (outs1 m) c (Proc.devRef .tc main_v18) : FVec Ideal S1024x1024 .bf16) = wTransT (argW m c) := by
  show after hostOps1_4 (V6 m (outs1 m) c) (Proc.devRef .tc main_v18) = _
  rw [st14_v18, v16_V6]; rfl
theorem vin1_v18 : (Vin1 m c main_v18 : FVec Ideal S1024x1024 .bf16) = wTransT (argW m c) :=
  (V9_of m (outs1 m) c main_v18 (by decide)).trans <| (V8_of m (outs1 m) c main_v18 (by decide)).trans <| v18_V7 m c

theorem v22_V7 : (V7 m (outs1 m) c (Proc.devRef .tc main_v22) : FVec Ideal S1024 .f32) = chanScaleT (argW m c) (maxM m c) := by
  show after hostOps1_4 (V6 m (outs1 m) c) (Proc.devRef .tc main_v22) = _
  rw [st14_v22, v12_V6, v5_V6]; rfl
theorem v22_V8 : (V8 m (outs1 m) c (Proc.devRef .tc main_v22) : FVec Ideal S1024 .f32) = chanScaleT (argW m c) (maxM m c) :=
  (V8_of m (outs1 m) c main_v22 (by decide)).trans <| v22_V7 m c
theorem v23_V7 : (V7 m (outs1 m) c (Proc.devRef .tc main_v23) : FVec Ideal S1024 .f32) = Host.divf (argB m c) (chanScaleT (argW m c) (maxM m c)) := by
  show after hostOps1_4 (V6 m (outs1 m) c) (Proc.devRef .tc main_v23) = _
  rw [st14_v23, arg2_V6, v12_V6, v5_V6]; rfl
theorem v24_V8 : (V8 m (outs1 m) c (Proc.devRef .tc main_v24) : FVec Ideal S1024 .f32) = biasQuantT (argW m c) (argB m c) (maxM m c) := by
  show after hostOps1_5 (V7 m (outs1 m) c) (Proc.devRef .tc main_v24) = _
  rw [st15_v24, v23_V7]; rfl
theorem vin1_v25 : (Vin1 m c main_v25 : FVec Ideal S1x1024 .f32)
    = shapeCast S1x1024 (biasQuantT (argW m c) (argB m c) (maxM m c)) shapeCasts_S1024_S1x1024 := by
  show after hostOps1_6 (V8 m (outs1 m) c) (Proc.devRef .tc main_v25) = _
  rw [st16_v25, v24_V8]
theorem vin1_v26 : (Vin1 m c main_v26 : FVec Ideal S1x1024 .f32)
    = shapeCast S1x1024 (chanScaleT (argW m c) (maxM m c)) shapeCasts_S1024_S1x1024 := by
  show after hostOps1_6 (V8 m (outs1 m) c) (Proc.devRef .tc main_v26) = _
  rw [st16_v26, v22_V8]

/-! ## The program's result -/

theorem result_eq : (V11 m (outs m) c (Proc.devRef .tc main_v28) : FVec Ideal S6x8x1024x1024 .f32)
    = shapeCast S6x8x1024x1024 (linOut m c : FVec Ideal S49152x1024 .f32) shapeCasts_S49152x1024_S6x8x1024x1024 := by
  show after hostOps2 (V10 m (outs m) c) (Proc.devRef .tc main_v28) = _
  rw [st2_v28, V10_v27]

end Cert.KernelIdeal.Whole

end
-- ==== Proof.RefIsSpec.lean ====
/-
  The reference program computes the quantised linear layer of QuantSpec.lean, and its precondition says every input
  entry is a real.

  Read stage by stage, the reference differs from the specification `G` in four places, none of which changes the value
  when the three arguments hold only reals:
  * it rounds in the form `y + (round y - y)`; at a real `y` this is `round y` (the subtraction and the addition
    cancel, whichever extended real `round y` is), and `y` is a real because it is a real divided by a positive scale
    (a positive real, or `⊤`, whose inverse is 0);
  * it multiplies the quantised activations by their scale and divides by it again; the scale is a positive real — the
    largest absolute value of finitely many reals is not `⊤`, and the floor `eps` keeps it above 0 — so the two cancel;
  * its clip bounds are the integers -128 and 127 converted to floats, which are the reals -128 and 127;
  * its matrix product, broadcasts and the reshape of the rows' scales read their operands at indices that are, on
    coordinates, the ones `G` names.
  The reduction of `|x|` over all four axes is the fold of `max` from `⊥` over every index (each index drops to the one
  index of the rank-0 result). The rows' maxima of `|w|` stay the unopened reduction: `G` takes them as a parameter.

  The precondition is three `all(|x| < +∞)` joined by `and`; an extended real whose absolute value is below `⊤` is a real.
-/
import proofs.«149211_j12876311953739_1_alg».proof.Proof.Gen.ReferenceIdeal.Read
import proofs.«149211_j12876311953739_1_alg».proof.Proof.Gen.Pre_finite_inputs
import proofs.«149211_j12876311953739_1_alg».proof.Proof.QuantSpec
import Idealize.ShloMosaic.Lib.ReduceAll
import Idealize.ShloMosaic.PureOps.Ideal.Laws

noncomputable section

namespace Cert.ReferenceIdeal.RefValue

open Cert.ReferenceIdeal Cert.ReferenceIdeal.Gen Cert.ReferenceIdeal.Read Cert.QuantSpec Idealize.ShloMosaic Idealize.ShloMosaic.ValueIdx

/-! ## Facts about the extended reals and the constants -/

/-- Adding back what was subtracted: for a real `a`, `a + (r - a) = r` at every extended real `r`. -/
theorem add_sub_cancel_coe (a : ℝ) (r : EReal) : (a : EReal) + (r - (a : EReal)) = r := by
  induction r using EReal.rec with
  | bot => simp
  | top => simp
  | coe x => norm_cast; ring

/-- The negative infinity the maxima start from. -/
theorem ofBits_neg_inf : Ideal.ofBits .f32 0xFF800000#32 = ⊥ := by
  simp [Ideal.ofBits, Ideal.ieee]

/-- The divisor of the scales is 127. -/
theorem c127_eq : c127 = ((127 : ℝ) : EReal) := by
  unfold c127
  simp [Ideal.ofBits, Ideal.ieee]
  rw [← EReal.coe_mul]
  norm_num

/-- The floor of the scales is a positive real. -/
theorem eps_pos : ∃ e : ℝ, 0 < e ∧ eps = (e : EReal) := by
  unfold eps
  simp [Ideal.ofBits, Ideal.ieee]
  exact ⟨11258999 * (2 ^ 50)⁻¹, by positivity, by rw [EReal.coe_mul]⟩

/-! ## The scales -/

/-- A scale is positive, whatever maximum it is taken from. -/
theorem scaleOf_pos (M : EReal) : 0 < scaleOf M := by
  obtain ⟨e, he, hE⟩ := eps_pos
  unfold scaleOf
  rw [c127_eq, Ideal.div_coe (by norm_num : (127 : ℝ) ≠ 0)]
  have h1 : (0 : EReal) < max M eps := lt_max_of_lt_right (by rw [hE]; exact_mod_cast he)
  exact EReal.mul_pos h1 (by exact_mod_cast (by norm_num : (0 : ℝ) < 1 / 127))

/-- A scale taken from a maximum that is not `⊤` is a positive real. -/
theorem scaleOf_real {M : EReal} (hM : M ≠ ⊤) : ∃ s : ℝ, 0 < s ∧ scaleOf M = (s : EReal) := by
  obtain ⟨e, he, hE⟩ := eps_pos
  have hpos := scaleOf_pos M
  unfold scaleOf at hpos ⊢
  rw [c127_eq, Ideal.div_coe (by norm_num : (127 : ℝ) ≠ 0)] at hpos ⊢
  have hne : max M eps ≠ ⊤ := by
    rw [hE]
    intro h
    rcases max_choice M (e : EReal) with h' | h'
    · exact hM (h' ▸ h)
    · exact EReal.coe_ne_top e (h' ▸ h)
  have hnb : max M eps ≠ ⊥ := by
    intro h
    have : (e : EReal) ≤ ⊥ := h ▸ (hE ▸ le_max_right M eps)
    exact absurd (le_bot_iff.mp this) (EReal.coe_ne_bot e)
  lift max M eps to ℝ using ⟨hne, hnb⟩ with m hm
  refine ⟨m * (1 / 127), ?_, by rw [EReal.coe_mul]⟩
  rw [← EReal.coe_mul] at hpos
  exact_mod_cast hpos

/-- The largest absolute value of finitely many reals is not `⊤`. -/
theorem absMax_ne_top (X : SX.Idx → EReal) (hX : ∀ i, ∃ r : ℝ, X i = (r : EReal)) : absMax X ≠ ⊤ := by
  refine ne_of_lt ?_
  unfold absMax
  rw [Finset.fold_max_lt]
  refine ⟨bot_lt_top, fun i _ => ?_⟩
  obtain ⟨r, hr⟩ := hX i
  rw [hr, ← EReal.coe_neg]
  exact max_lt (EReal.coe_lt_top _) (EReal.coe_lt_top _)

/-- A real divided by a positive extended real is a real. -/
theorem div_real_of_pos (v : ℝ) {s : EReal} (hs : 0 < s) : ∃ y : ℝ, Ideal.div (v : EReal) s = (y : EReal) := by
  induction s using EReal.rec with
  | bot => exact absurd hs (not_lt.mpr bot_le)
  | top => exact ⟨0, by simp [Ideal.div]⟩
  | coe r =>
    have hr : r ≠ 0 := ne_of_gt (EReal.coe_pos.mp hs)
    exact ⟨v * (1 / r), by rw [Ideal.div_coe hr, EReal.coe_mul]⟩

/-! ## The two detours of the reference -/

/-- Rounding written as `y + (round y - y)` is `round y` at a real `y`. -/
theorem ste_eq {y : EReal} (hy : ∃ a : ℝ, y = (a : EReal)) : y + (rnd y - y) = rnd y := by
  obtain ⟨a, rfl⟩ := hy
  exact add_sub_cancel_coe a _

/-- Multiplying by a positive real scale and dividing by it again changes nothing. -/
theorem mul_div_cancel_pos (q : EReal) {s : ℝ} (hs : 0 < s) : Ideal.div (q * (s : EReal)) (s : EReal) = q := by
  rw [Ideal.div_coe (ne_of_gt hs), mul_assoc, ← EReal.coe_mul, mul_one_div_cancel (ne_of_gt hs), EReal.coe_one, mul_one]

/-! ## The reference, stage by stage -/

/-- The integer clip bounds, converted: 127 and -128. -/
theorem sitofp_127 : FloatOps.sitofp (F := Ideal) .f32 (127#32 : BitVec 32) = ((127 : ℝ) : EReal) := by
  show (((127#32 : BitVec 32).toInt : ℝ) : EReal) = _
  rw [show (127#32 : BitVec 32).toInt = 127 by decide]
  norm_num
theorem sitofp_neg128 : FloatOps.sitofp (F := Ideal) .f32 (4294967168#32 : BitVec 32) = ((-128 : ℝ) : EReal) := by
  show (((4294967168#32 : BitVec 32).toInt : ℝ) : EReal) = _
  rw [show (4294967168#32 : BitVec 32).toInt = -128 by decide]
  norm_num

/-- The reduction of `|x|` over all four axes is the largest absolute value. -/
theorem v1_eq (X : (⟨S6x8x1024x1024, .f32⟩ : BufTy).Contents (Elt Ideal)) (i0 : S_.Idx) :
    val_main_v1 (F := Ideal) X i0 = absMax X := by
  unfold val_main_v1
  rw [Host.reduce_eq_fold, Finset.filter_true_of_mem (fun i _ => funext fun d => d.elim0)]
  have e0 : val_main_v0 (F := Ideal) X = fun i => max (X i) (-(X i)) := rfl
  have ec : val_main_cst (F := Ideal) (Shape.Idx.first h_S_) = ⊥ := by
    rw [val_main_cst_apply, Ideal.ofBits_def, ofBits_neg_inf]
  rw [e0, ec]
  rfl

/-- The activations' scale. -/
theorem v3_eq (X : (⟨S6x8x1024x1024, .f32⟩ : BufTy).Contents (Elt Ideal)) (i0 : S_.Idx) :
    val_main_v3 (F := Ideal) X i0 = scaleOf (absMax X) := by
  rw [val_main_v3_apply, val_main_v2_apply, v1_eq, val_main_cst_0_apply, val_main_cst_1_apply]
  rfl

/-- A weight row's scale, as a column. -/
theorem v18_eq (W : (⟨S1024x1024, .f32⟩ : BufTy).Contents (Elt Ideal)) (i : S1024x1.Idx) :
    val_main_v18 (F := Ideal) W i = scaleOf (val_main_v13 (F := Ideal) W (idx_main_v14 i)) := by
  rw [val_main_v18_apply, val_main_v16_apply, val_main_v14_apply, val_main_v15_apply, val_main_v17_apply,
    val_main_cst_4_apply, val_main_cst_5_apply]
  rfl

/-- The product of the two scales at an output channel. -/
theorem v27_eq (X : (⟨S6x8x1024x1024, .f32⟩ : BufTy).Contents (Elt Ideal)) (W : (⟨S1024x1024, .f32⟩ : BufTy).Contents (Elt Ideal))
    (o : Fin 1024) :
    val_main_v27 (F := Ideal) X W (ix1 o) = scaleOf (val_main_v13 (F := Ideal) W (ix1 o)) * scaleOf (absMax X) := by
  have e : idx_main_v14 (idx_main_v25 (ix1 o)) = ix1 o :=
    funext fun a => Fin.ext (by match a with | ⟨0, _⟩ => exact Nat.div_one _)
  rw [val_main_v27_apply, val_main_v25_apply, v18_eq, val_main_v26_apply, v3_eq, e]
  rfl

/-- The quantised activation at an index. -/
theorem v9_eq (X : (⟨S6x8x1024x1024, .f32⟩ : BufTy).Contents (Elt Ideal)) (hX : ∀ i, ∃ r : ℝ, X i = (r : EReal))
    (i : S6x8x1024x1024.Idx) :
    val_main_v9 (F := Ideal) X i = quant (X i) (scaleOf (absMax X)) := by
  obtain ⟨r, hr⟩ := hX i
  have hy : ∃ a : ℝ, Ideal.div (X i) (scaleOf (absMax X)) = (a : EReal) := by
    rw [hr]; exact div_real_of_pos r (scaleOf_pos _)
  rw [val_main_v9_apply, val_main_call1_v4_apply, val_main_call1_v3_apply, val_main_c_2_apply,
    val_main_call1_v2_apply, val_main_call1_v1_apply, val_main_call1_v0_apply, val_main_c_apply,
    val_main_v8_apply, val_main_v7_apply, val_main_v6_apply, val_main_v5_apply, val_main_v4_apply, v3_eq,
    sitofp_127, sitofp_neg128]
  show min _ (max _ (Ideal.div (X i) (scaleOf (absMax X)) + (rnd (Ideal.div (X i) (scaleOf (absMax X))) - Ideal.div (X i) (scaleOf (absMax X))))) = _
  rw [ste_eq hy]
  rfl

/-- The quantised weight at (o, k). -/
theorem v24_eq (W : (⟨S1024x1024, .f32⟩ : BufTy).Contents (Elt Ideal)) (hW : ∀ i, ∃ r : ℝ, W i = (r : EReal))
    (o k : Fin 1024) :
    val_main_v24 (F := Ideal) W (ix2 o k) = quant (W (ix2 o k)) (scaleOf (val_main_v13 (F := Ideal) W (ix1 o))) := by
  obtain ⟨r, hr⟩ := hW (ix2 o k)
  have e : idx_main_v14 (idx_main_v19 (ix2 o k)) = ix1 o :=
    funext fun a => Fin.ext (by match a with | ⟨0, _⟩ => rfl)
  have hy : ∃ a : ℝ, Ideal.div (W (ix2 o k)) (scaleOf (val_main_v13 (F := Ideal) W (ix1 o))) = (a : EReal) := by
    rw [hr]; exact div_real_of_pos r (scaleOf_pos _)
  rw [val_main_v24_apply, val_main_call3_v4_apply, val_main_call3_v3_apply, val_main_c_7_apply,
    val_main_call3_v2_apply, val_main_call3_v1_apply, val_main_call3_v0_apply, val_main_c_6_apply,
    val_main_v23_apply, val_main_v22_apply, val_main_v21_apply, val_main_v20_apply, val_main_v19_apply, v18_eq, e,
    sitofp_127, sitofp_neg128]
  show min _ (max _ (Ideal.div (W (ix2 o k)) (scaleOf (val_main_v13 (F := Ideal) W (ix1 o)))
    + (rnd (Ideal.div (W (ix2 o k)) (scaleOf (val_main_v13 (F := Ideal) W (ix1 o))))
      - Ideal.div (W (ix2 o k)) (scaleOf (val_main_v13 (F := Ideal) W (ix1 o)))))) = _
  rw [ste_eq hy]
  rfl

/-- Scaled back and divided again, the quantised activation is unchanged. -/
theorem v33_eq (X : (⟨S6x8x1024x1024, .f32⟩ : BufTy).Contents (Elt Ideal)) (hX : ∀ i, ∃ r : ℝ, X i = (r : EReal))
    (i : S6x8x1024x1024.Idx) :
    val_main_v33 (F := Ideal) X i = quant (X i) (scaleOf (absMax X)) := by
  obtain ⟨s, hs, hS⟩ := scaleOf_real (absMax_ne_top X hX)
  rw [val_main_v33_apply, val_main_v11_apply, val_main_v32_apply, val_main_v10_apply, v3_eq, v9_eq X hX, hS]
  exact mul_div_cancel_pos _ hs

/-- The rounded bias at an output channel. -/
theorem v31_eq (X : (⟨S6x8x1024x1024, .f32⟩ : BufTy).Contents (Elt Ideal)) (W : (⟨S1024x1024, .f32⟩ : BufTy).Contents (Elt Ideal))
    (B : (⟨S1024, .f32⟩ : BufTy).Contents (Elt Ideal)) (hB : ∀ i, ∃ r : ℝ, B i = (r : EReal)) (o : Fin 1024) :
    val_main_v31 (F := Ideal) X W B (ix1 o)
      = rnd (Ideal.div (B (ix1 o)) (scaleOf (val_main_v13 (F := Ideal) W (ix1 o)) * scaleOf (absMax X))) := by
  obtain ⟨r, hr⟩ := hB (ix1 o)
  have hy : ∃ a : ℝ, Ideal.div (B (ix1 o)) (scaleOf (val_main_v13 (F := Ideal) W (ix1 o)) * scaleOf (absMax X)) = (a : EReal) := by
    rw [hr]; exact div_real_of_pos r (EReal.mul_pos (scaleOf_pos _) (scaleOf_pos _))
  rw [val_main_v31_apply, val_main_v30_apply, val_main_v29_apply, val_main_v28_apply, v27_eq]
  exact ste_eq hy

/-- THE REFERENCE IS THE SPECIFICATION, at finite inputs. -/
theorem ref_eq_spec
    (X : (⟨S6x8x1024x1024, .f32⟩ : BufTy).Contents (Elt Ideal)) (W : (⟨S1024x1024, .f32⟩ : BufTy).Contents (Elt Ideal))
    (B : (⟨S1024, .f32⟩ : BufTy).Contents (Elt Ideal))
    (hX : ∀ i, ∃ r : ℝ, X i = (r : EReal)) (hW : ∀ i, ∃ r : ℝ, W i = (r : EReal)) (hB : ∀ i, ∃ r : ℝ, B i = (r : EReal))
    (l : Fin 6) (b : Fin 8) (q : Fin 1024) (o : Fin 1024) :
    val_main_v40 (F := Ideal) X W B (ix4 l b q o) = G X W B (val_main_v13 (F := Ideal) W) l b q o := by
  have el : ∀ k : Fin 1024, lidx_main_v34 (ix4 l b q o) k = ix4 l b q k := fun k =>
    funext fun a => Fin.ext (by match a with | ⟨0, _⟩ => rfl | ⟨1, _⟩ => rfl | ⟨2, _⟩ => rfl | ⟨3, _⟩ => rfl)
  have er : ∀ k : Fin 1024, ridx_main_v34 (ix4 l b q o) k = ix2 o k := fun k =>
    funext fun a => Fin.ext (by match a with | ⟨0, _⟩ => rfl | ⟨1, _⟩ => rfl)
  have e36 : idx_main_v35 (idx_main_v36 (ix4 l b q o)) = ix1 o :=
    funext fun a => Fin.ext (by match a with | ⟨0, _⟩ => rfl)
  have e39 : idx_main_v38 (idx_main_v39 (ix4 l b q o)) = ix1 o :=
    funext fun a => Fin.ext (by match a with | ⟨0, _⟩ => rfl)
  have hsum : val_main_v34 (F := Ideal) X W (ix4 l b q o)
      = ∑ k : Fin 1024, quant (X (ix4 l b q k)) (scaleOf (absMax X))
          * quant (W (ix2 o k)) (scaleOf (val_main_v13 (F := Ideal) W (ix1 o))) := by
    rw [val_main_v34_apply]
    refine Finset.sum_congr rfl fun k _ => ?_
    rw [el k, er k, v33_eq X hX, v24_eq W hW]
  rw [val_main_v40_apply, val_main_v37_apply, hsum, val_main_v36_apply, val_main_v35_apply, e36, v31_eq X W B hB,
    val_main_v39_apply, val_main_v38_apply, e39, v27_eq]
  rfl

/-! ## Finiteness from the precondition -/

instance subsingleton_scalar_idx : Subsingleton Cert.Pre_finite_inputs.S_.Idx := ⟨fun a b => funext fun d => d.elim0⟩

/-- The positive infinity the precondition compares against. -/
theorem ofBits_pos_inf : Ideal.ofBits .f32 0x7F800000#32 = ⊤ := by
  simp [Ideal.ofBits, Ideal.ieee]

/-- An entry whose absolute value compares below `+∞` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_pos_inf] at h
  induction x using EReal.rec with
  | bot => simp [Ideal.cmp] at h
  | top => simp [Ideal.cmp] at h
  | coe r => exact ⟨r, rfl⟩

/-- THE PRECONDITION DECODED: every entry of the three arguments is a real. -/
theorem finite_of_pre
    (X : (⟨S6x8x1024x1024, .f32⟩ : BufTy).Contents (Elt Ideal)) (W : (⟨S1024x1024, .f32⟩ : BufTy).Contents (Elt Ideal))
    (B : (⟨S1024, .f32⟩ : BufTy).Contents (Elt Ideal))
    (h : Cert.Pre_finite_inputs.fn (F := Ideal) X W B = fun _ => 1#1) :
    (∀ i, ∃ r : ℝ, X i = (r : EReal)) ∧ (∀ i, ∃ r : ℝ, W i = (r : EReal)) ∧ (∀ i, ∃ r : ℝ, B i = (r : EReal)) := by
  have e := congrFun h ValueIdx.ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun i => ?_⟩
  · exact real_of_abs_lt_inf (X i) (Host.reduce_andi_all _ _ _ _ _ e1 i)
  · exact real_of_abs_lt_inf (W i) (Host.reduce_andi_all _ _ _ _ _ e2 i)
  · exact real_of_abs_lt_inf (B i) (Host.reduce_andi_all _ _ _ _ _ e3 i)

end Cert.ReferenceIdeal.RefValue

end
-- ==== Proof.HostReadsIdeal.lean ====
/-
  The host operations between the two kernel regions, read at indices, in the words of QuantSpec.lean.

  Each of the named terms is a chain of pointwise operations and layout operations (broadcasts of a scalar, of the
  rows' column and of the column along the rows; the reshape of the column to a vector and of the one-by-one array to a
  scalar; the transpose), so at an index it reads its arguments at the matching index:
  * the activations' scale at (0, 0) is  max(M(0,0), eps) / 127 = scaleOf (M(0,0));
  * the rows' scale at (o, 0) is  scaleOf  of row o's maximum;
  * the transposed quantised weight at (k, o) is the weight at (o, k) divided by row o's scale, rounded half to even and
    clamped between the converted integers -128 and 127: the change to the shorter float format is the identity on the
    extended reals;
  * the per-channel scale at o is the product of the two scales, and the rounded bias at o is the bias divided by it,
    rounded.
  The body's own quantiser clamps between the float words for -128 and 127, which are those reals too, and the rows'
  maxima are the same reduction as the reference's.
-/
import proofs.«149211_j12876311953739_1_alg».proof.Proof.HostChainIdeal
import proofs.«149211_j12876311953739_1_alg».proof.Proof.QLinearPayloadIdeal
import proofs.«149211_j12876311953739_1_alg».proof.Proof.RefIsSpec
import proofs.«149211_j12876311953739_1_alg».proof.Proof.QuantSpec
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.ValueIdx Cert.QuantSpec
open Cert.ReferenceIdeal.RefValue (sitofp_127 sitofp_neg128 c127_eq)

/-! ## Pointwise operations and layout operations of the chain, at coordinates -/

section AtIndex
variable {s : Shape} {φ : FTy}

/-- The host's quotient at an index is the quotient of the elements. -/
theorem hostDivf_apply (a b : FVec Ideal s φ) (i : s.Idx) : Host.divf a b i = Ideal.div (a i) (b i) := rfl
/-- The host's rounding at an index rounds the element half to even. -/
theorem hostRoundeven_apply (a : FVec Ideal s φ) (i : s.Idx) : Host.roundeven a i = rnd (a i) := rfl

end AtIndex

/-- A scalar broadcast to any shape reads the scalar. -/
theorem scalarBroadcast_apply {t : Shape} (h : S_.BroadcastsInDim t (![] : Fin 0 → Fin t.rank)) (y : S_.Idx → EReal)
    (j : t.Idx) : broadcastInDim t ![] h y j = y ix0 :=
  broadcastInDim_apply _ h y j ix0 (fun a => a.elim0)

/-- The rows' vector laid as a column reads, at (o, 0), the vector at o. -/
theorem column_apply (y : S1024.Idx → EReal) (o : Fin 1024) :
    broadcastInDim S1024x1 ![0] bcast_S1024_S1024x1_0 y (ix2 o (0 : Fin 1)) = y (ix1 o) :=
  broadcastInDim_apply _ bcast_S1024_S1024x1_0 y _ (ix1 o) (fun a => match a with
    | ⟨0, _⟩ => by show o.val = if (1024 : Nat) = 1 then 0 else o.val; rw [if_neg (by decide)])

/-- The column repeated along the rows reads, at (o, k), the column at (o, 0). -/
theorem alongRows_apply (y : S1024x1.Idx → EReal) (o k : Fin 1024) :
    broadcastInDim S1024x1024 ![0, 1] bcast_S1024x1_S1024x1024_0_1 y (ix2 o k) = y (ix2 o (0 : Fin 1)) :=
  broadcastInDim_apply _ bcast_S1024x1_S1024x1024_0_1 y _ (ix2 o (0 : Fin 1)) (fun a => match a with
    | ⟨0, _⟩ => by show o.val = if (1024 : Nat) = 1 then 0 else o.val; rw [if_neg (by decide)]
    | ⟨1, _⟩ => by show 0 = if (1 : Nat) = 1 then 0 else k.val; rw [if_pos rfl])

/-- The column reshaped to a vector reads, at o, the column at (o, 0). -/
theorem columnToVector_apply (y : S1024x1.Idx → EReal) (o : Fin 1024) :
    shapeCast S1024 y shapeCasts_S1024x1_S1024 (ix1 o) = y (ix2 o (0 : Fin 1)) :=
  shapeCast_apply y shapeCasts_S1024x1_S1024 (ix1 o) (ix2 o (0 : Fin 1))
    (by rewrite [Shape.rowMajor_val_two, Shape.rowMajor_val_one]; show o.val * 1 + 0 = o.val; omega)

/-- The one-by-one array reshaped to a scalar reads its one entry. -/
theorem oneByOneToScalar_apply (y : S1x1.Idx → EReal) (j : S_.Idx) :
    shapeCast S_ y shapeCasts_S1x1_S_ j = y (ix2 (0 : Fin 1) (0 : Fin 1)) :=
  shapeCast_apply y shapeCasts_S1x1_S_ j (ix2 (0 : Fin 1) (0 : Fin 1))
    (by
      have h0 := (S_.rowMajor j).isLt
      have hn : S_.numel = 1 := by decide
      rewrite [Shape.rowMajor_val_two]
      show 0 * 1 + 0 = (S_.rowMajor j).val
      omega)

/-! ## The terms at indices -/

theorem actScaleT_apply (M : FVec Ideal S1x1 .f32) :
    actScaleT M (ix2 (0 : Fin 1) (0 : Fin 1)) = scaleOf (M (ix2 (0 : Fin 1) (0 : Fin 1))) := rfl

theorem rowScaleT_apply (W : FVec Ideal S1024x1024 .f32) (o : Fin 1024) :
    rowScaleT W (ix2 o (0 : Fin 1)) = scaleOf (rowMaxT W (ix1 o)) := by
  unfold rowScaleT
  generalize rowMaxT W = y
  rw [hostDivf_apply, maximumf_apply, column_apply, scalarBroadcast_apply, scalarBroadcast_apply, constant_apply,
    constant_apply]
  rfl

/-- The weight over its row's scale. -/
theorem wScaledT_apply (W : FVec Ideal S1024x1024 .f32) (o k : Fin 1024) :
    wScaledT W (ix2 o k) = Ideal.div (W (ix2 o k)) (scaleOf (rowMaxT W (ix1 o))) := by
  unfold wScaledT
  rw [hostDivf_apply, alongRows_apply, rowScaleT_apply]

/-- The quantised weight. -/
theorem wQuantT_apply (W : FVec Ideal S1024x1024 .f32) (o k : Fin 1024) :
    wQuantT W (ix2 o k) = quant (W (ix2 o k)) (scaleOf (rowMaxT W (ix1 o))) := by
  unfold wQuantT
  rw [minimumf_apply, maximumf_apply, hostRoundeven_apply, wScaledT_apply, scalarBroadcast_apply, scalarBroadcast_apply,
    sitofp_apply, sitofp_apply]
  generalize rowMaxT W (ix1 o) = m
  generalize W (ix2 o k) = v
  show min (FloatOps.sitofp (F := Ideal) .f32 (127#32 : BitVec 32))
      (max (FloatOps.sitofp (F := Ideal) .f32 (4294967168#32 : BitVec 32)) (rnd (Ideal.div v (scaleOf m)))) = _
  rw [sitofp_127, sitofp_neg128]
  rfl

theorem wTransT_apply (W : FVec Ideal S1024x1024 .f32) (k o : Fin 1024) :
    wTransT W (ix2 k o) = quant (W (ix2 o k)) (scaleOf (rowMaxT W (ix1 o))) := by
  unfold wTransT
  rw [transpose_ix2_apply, truncf_apply, wQuantT_apply]

theorem chanScaleT_apply (W : FVec Ideal S1024x1024 .f32) (M : FVec Ideal S1x1 .f32) (o : Fin 1024) :
    chanScaleT W M (ix1 o) = scaleOf (rowMaxT W (ix1 o)) * scaleOf (M (ix2 (0 : Fin 1) (0 : Fin 1))) := by
  unfold chanScaleT
  rw [mulf_apply, columnToVector_apply, rowScaleT_apply, scalarBroadcast_apply, oneByOneToScalar_apply, actScaleT_apply]

theorem biasQuantT_apply (W : FVec Ideal S1024x1024 .f32) (B : FVec Ideal S1024 .f32) (M : FVec Ideal S1x1 .f32) (o : Fin 1024) :
    biasQuantT W B M (ix1 o)
      = rnd (Ideal.div (B (ix1 o)) (scaleOf (rowMaxT W (ix1 o)) * scaleOf (M (ix2 (0 : Fin 1) (0 : Fin 1))))) := by
  unfold biasQuantT
  rw [hostRoundeven_apply, hostDivf_apply, chanScaleT_apply]

/-! ## The body's quantiser, and the rows' maxima -/

/-- The float word the body clamps below at is -128. -/
theorem ofBits_neg128 : Ideal.ofBits .f32 0xC3000000#32 = ((-128 : ℝ) : EReal) := by
  simp [Ideal.ofBits, Ideal.ieee]
  rw [← EReal.coe_mul]
  norm_num

theorem bodyQuant_eq (v s : EReal) : Cert.KernelIdeal.QLinear.bodyQuant v s = quant v s := by
  unfold Cert.KernelIdeal.QLinear.bodyQuant
  rw [ofBits_neg128, show Ideal.ofBits .f32 0x42FE0000#32 = ((127 : ℝ) : EReal) from c127_eq]
  rfl

theorem rowMaxT_eq_ref (W : FVec Ideal S1024x1024 .f32) :
    rowMaxT W = Cert.ReferenceIdeal.Read.val_main_v13 (F := Ideal) W := by
  unfold rowMaxT Cert.ReferenceIdeal.Read.val_main_v13
  rfl

end Cert.KernelIdeal.Whole

end
-- ==== Proof.KernelIsSpecIdeal.lean ====
/-
  The kernel program's result is the specification. Entry (l, b, q, o) of the result is entry (p, o) of the second
  region's output with p = (8 l + b) 1024 + q, the row-major position of (l, b, q); that entry is
      ( sum over k of  quant(x(p,k) / s) * wq(k,o)  +  bi(o) ) * sc(o)
  with x(p,k) = X(l,b,q,k), s = scale(M), wq(k,o) = quant(W(o,k) / u(o)), sc(o) = u(o) scale(M), bi(o) = round(B(o) / sc(o)),
  where M is the first region's result. Given that M is the largest |x|, this is the specification's formula term by term.
-/
import proofs.«149211_j12876311953739_1_alg».proof.Proof.QLinearArrayIdeal
import proofs.«149211_j12876311953739_1_alg».proof.Proof.RegionInputsIdeal
import proofs.«149211_j12876311953739_1_alg».proof.Proof.HostReadsIdeal
import proofs.«149211_j12876311953739_1_alg».proof.Proof.QuantSpec

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.QuantSpec

variable (m : (ℓ : Loc nD τ sig) → Buf (Elt Ideal) ℓ) (c : Dev nD)

theorem flat_lt (l : Fin 6) (b : Fin 8) (q : Fin 1024) : (l.val * 8 + b.val) * 1024 + q.val < 49152 := by
  have := l.isLt; have := b.isLt; have := q.isLt; omega

/-- The row of the flattened arrays that holds (l, b, q). -/
abbrev flat (l : Fin 6) (b : Fin 8) (q : Fin 1024) : Fin 49152 := ⟨(l.val * 8 + b.val) * 1024 + q.val, flat_lt l b q⟩

/-- The result at (l, b, q, o) is the second region's output at (flat l b q, o). -/
theorem result_apply (l : Fin 6) (b : Fin 8) (q : Fin 1024) (o : Fin 1024) :
    (V11 m (outs m) c (Proc.devRef .tc main_v28) : FVec Ideal S6x8x1024x1024 .f32) (ix4 l b q o)
      = (linOut m c : FVec Ideal S49152x1024 .f32) (ix2 (flat l b q) o) := by
  rw [result_eq]
  exact shapeCast_apply _ _ _ _ (by
    show (S49152x1024.rowMajor (ix2 (flat l b q) o)).val = (S6x8x1024x1024.rowMajor (ix4 l b q o)).val
    rw [Shape.rowMajor_val_two, Shape.rowMajor_val_four]
    show ((l.val * 8 + b.val) * 1024 + q.val) * 1024 + o.val = ((l.val * 8 + b.val) * 1024 + q.val) * 1024 + o.val
    rfl)

/-- The flattened activations at (flat l b q, k) are X at (l, b, q, k). -/
theorem flatX_apply (l : Fin 6) (b : Fin 8) (q : Fin 1024) (k : Fin 1024) :
    (Vin1 m c main_v0 : FVec Ideal S49152x1024 .f32) (ix2 (flat l b q) k) = argX m c (ix4 l b q k) := by
  rw [vin1_v0]
  exact shapeCast_apply _ _ _ _ (by
    show (S6x8x1024x1024.rowMajor (ix4 l b q k)).val = (S49152x1024.rowMajor (ix2 (flat l b q) k)).val
    rw [Shape.rowMajor_val_two, Shape.rowMajor_val_four]
    show ((l.val * 8 + b.val) * 1024 + q.val) * 1024 + k.val = ((l.val * 8 + b.val) * 1024 + q.val) * 1024 + k.val
    rfl)

/-- THE KERNEL PROGRAM COMPUTES THE SPECIFICATION, given that the first region's result is the largest |x|. -/
theorem kernel_eq_spec (hM : ∀ j, maxM m c j = absMax (argX m c)) (l : Fin 6) (b : Fin 8) (q : Fin 1024) (o : Fin 1024) :
    (V11 m (outs m) c (Proc.devRef .tc main_v28) : FVec Ideal S6x8x1024x1024 .f32) (ix4 l b q o)
      = G (argX m c) (argW m c) (argB m c) (rowMaxT (argW m c)) l b q o := by
  rw [result_apply]
  unfold linOut
  rw [QLinear.final]
  show QLinear.gEntry (Vin1 m c main_v0) (Vin1 m c main_v18) (Vin1 m c main_v25) (Vin1 m c main_v26) (Vin1 m c main_v5) (flat l b q) o = _
  unfold QLinear.gEntry G
  rw [vin1_v5, vin1_v18, vin1_v25, vin1_v26, actScaleT_apply, hM, shapeCast_a_1a_apply, shapeCast_a_1a_apply,
    biasQuantT_apply, chanScaleT_apply, hM]
  refine congrArg (· * _) (congrArg (· + _) (Finset.sum_congr rfl fun k _ => ?_))
  rw [flatX_apply, bodyQuant_eq, wTransT_apply]

end Cert.KernelIdeal.Whole

end
-- ==== Proof.lean ====
/-
  An 8-bit quantised linear layer. The kernel program finds the largest |x| of the activations in a first kernel
  region (a running maximum kept in a scratch cell over 24 row blocks), derives the activations' scale and, on the host,
  the weight rows' scales, the quantised transposed weight, the per-channel scale and the rounded bias, and in a second
  kernel region quantises each block of activations, multiplies by the quantised weight, adds the rounded bias and
  rescales. The reference does the same with jnp operations, except that it rounds in the form y + (round y - y) and
  multiplies the quantised activations by their scale only to divide by it again. On the extended reals the two agree
  for finite inputs: y + (r - y) = r for a real y, and (q s) / s = q for a positive real s; the kernel's blockwise
  running maximum is the maximum over all entries because |x| is never negative.
  Every program runs to the end without fault and leaves its arguments as launched; the idealized kernel is the
  kernel's own text read at the extended reals (the ideal pass rewrote nothing).
-/
import proofs.«149211_j12876311953739_1_alg».proof.Defs
import proofs.«149211_j12876311953739_1_alg».proof.Proof.Gen.Kernel
import proofs.«149211_j12876311953739_1_alg».proof.Proof.Gen.KernelIdeal
import proofs.«149211_j12876311953739_1_alg».proof.Proof.Gen.ReferenceIdeal
import proofs.«149211_j12876311953739_1_alg».proof.Proof.Gen.Pre_finite_inputs
import proofs.«149211_j12876311953739_1_alg».proof.Proof.Gen.ReferenceIdeal.Run
import proofs.«149211_j12876311953739_1_alg».proof.Proof.Gen.ReferenceIdeal.Read
import proofs.«149211_j12876311953739_1_alg».proof.Proof.WholeRunBits
import proofs.«149211_j12876311953739_1_alg».proof.Proof.WholeRunIdeal
import proofs.«149211_j12876311953739_1_alg».proof.Proof.AbsMaxValueIdeal
import proofs.«149211_j12876311953739_1_alg».proof.Proof.KernelIsSpecIdeal
import proofs.«149211_j12876311953739_1_alg».proof.Proof.RefIsSpec
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel (hKernel := Cert.Kernel.Gen.facts) (hPre_finite_inputs := Cert.Pre_finite_inputs.Gen.facts) :=
  fun m ρ _ => Cert.Kernel.Whole.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- The two idealized programs, run from memories that agree on finite arguments, end with the same result: both
    compute the specification's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V11 m (Cert.KernelIdeal.Whole.outs m) c (Proc.devRef .tc Cert.KernelIdeal.main_v28), ?_, ?_⟩
  · exact (θ_run Cert.KernelIdeal.defs _ _).mono (fun _ h c =>
      ⟨h c _ (Cert.KernelIdeal.Whole.mem_uc Cert.KernelIdeal.main_v28 (by decide)),
       (h c _ (Cert.KernelIdeal.Whole.mem_uc Cert.KernelIdeal.main_arg0 (by decide))).trans (Cert.KernelIdeal.Gen.V11_main_arg0 m _ c),
       (h c _ (Cert.KernelIdeal.Whole.mem_uc Cert.KernelIdeal.main_arg1 (by decide))).trans (Cert.KernelIdeal.Gen.V11_main_arg1 m _ c),
       (h c _ (Cert.KernelIdeal.Whole.mem_uc Cert.KernelIdeal.main_arg2 (by decide))).trans (Cert.KernelIdeal.Gen.V11_main_arg2 m _ c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2.1, (hagree c).2.2]
    obtain ⟨hX, hW, hB⟩ := Cert.ReferenceIdeal.RefValue.finite_of_pre _ _ _ (hpre c)
    have hM : ∀ j, Cert.KernelIdeal.Whole.maxM m c j = Cert.QuantSpec.absMax (Cert.KernelIdeal.Whole.argX m c) := fun j =>
      Cert.KernelIdeal.AbsMax.maxOut_eq (Cert.KernelIdeal.Whole.Vin0 m) c (Cert.KernelIdeal.Whole.argX m c)
        (Cert.KernelIdeal.Whole.v0_V1 m c) j
    funext i
    obtain ⟨l, b, q, o, rfl⟩ : ∃ (l : Fin 6) (b : Fin 8) (q : Fin 1024) (o : Fin 1024), i = ix4 l b q o :=
      ⟨i 0, i 1, i 2, i 3, eq_ix4 i⟩
    refine (Cert.ReferenceIdeal.RefValue.ref_eq_spec _ _ _ hX hW hB l b q o).trans ?_
    rw [← Cert.KernelIdeal.Whole.rowMaxT_eq_ref]
    exact (Cert.KernelIdeal.Whole.kernel_eq_spec m c hM l b q o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
